-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x128 : Shape := ⟨2, ![4096, 128]⟩
abbrev S256x128 : Shape := ⟨2, ![256, 128]⟩
abbrev S128x256 : Shape := ⟨2, ![128, 256]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S256x128 : S_.BroadcastsInDim S256x128 (![] : Fin 0 → Fin S256x128.rank)
  reducesTo_S256x128_S_d0_1 : S256x128.ReducesTo [0, 1] S_
  bcast_S_S128x256 : S_.BroadcastsInDim S128x256 (![] : Fin 0 → Fin S128x256.rank)
  reducesTo_S128x256_S_d0_1 : S128x256.ReducesTo [0, 1] S_

variable [Facts]

def fn_part1 {F : FTy → Type} [FloatOps F] (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  main_v18

def fn {F : FTy → Type} [FloatOps F] (main_arg0 : FVec F S4096x4096 .f32) (main_arg1 : FVec F S4096x128 .f32) (main_arg2 : FVec F S256x128 .f32) (main_arg3 : FVec F S128x256 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_v13 main_v16
-- ==== Kernel.lean ====
abbrev S4096x4096 : Shape := ⟨2, ![4096, 4096]⟩
abbrev S4096x128 : Shape := ⟨2, ![4096, 128]⟩
abbrev S256x128 : Shape := ⟨2, ![256, 128]⟩
abbrev S128x256 : Shape := ⟨2, ![128, 256]⟩
abbrev S4096x256 : Shape := ⟨2, ![4096, 256]⟩
abbrev S512x4096 : Shape := ⟨2, ![512, 4096]⟩
abbrev S512x256 : Shape := ⟨2, ![512, 256]⟩
abbrev S512x128 : Shape := ⟨2, ![512, 128]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S4096x4096, .f32⟩
  | .hbm, ⟨1, _⟩ => ⟨S4096x128, .f32⟩
  | .hbm, ⟨2, _⟩ => ⟨S256x128, .f32⟩
  | .hbm, ⟨3, _⟩ => ⟨S128x256, .f32⟩
  | .hbm, ⟨4, _⟩ => ⟨S4096x256, .f32⟩
  | .hbm, ⟨5, _⟩ => ⟨S4096x128, .f32⟩
  | .hbm, ⟨6, _⟩ => ⟨S4096x128, .f32⟩
  | .local _ .vmem, ⟨0, _⟩ => ⟨S512x4096, .f32⟩
  | .local _ .vmem, ⟨1, _⟩ => ⟨S512x4096, .f32⟩
  | .local _ .vmem, ⟨2, _⟩ => ⟨S4096x128, .f32⟩
  | .local _ .vmem, ⟨3, _⟩ => ⟨S256x128, .f32⟩
  | .local _ .vmem, ⟨4, _⟩ => ⟨S128x256, .f32⟩
  | .local _ .vmem, ⟨5, _⟩ => ⟨S512x256, .f32⟩
  | .local _ .vmem, ⟨6, _⟩ => ⟨S512x256, .f32⟩
  | .local _ .vmem, ⟨7, _⟩ => ⟨S512x128, .f32⟩
  | .local _ .vmem, ⟨8, _⟩ => ⟨S512x128, .f32⟩
  | .local _ .vmem, ⟨9, _⟩ => ⟨S512x4096, .f32⟩
  | .local _ .vmem, ⟨10, _⟩ => ⟨S512x4096, .f32⟩
  | .local _ .vmem, ⟨11, _⟩ => ⟨S4096x128, .f32⟩
  | .local _ .vmem, ⟨12, _⟩ => ⟨S512x128, .f32⟩
  | .local _ .vmem, ⟨13, _⟩ => ⟨S512x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S256x128_S256x128_0_0 : ∀ a, (![0, 0] : Fin 2 → Nat) a + S256x128.size a ≤ S256x128.size a
  h_S256x128 : 0 < S256x128.numel
  transposes_S256x128_p1_0_S128x256 : S256x128.Transposes [1, 0] S128x256
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S512x4096_S512x512_0_0 : ∀ a, (![0, 0] : Fin 2 → Nat) a + S512x512.size a ≤ S512x4096.size a
  h_S512x512 : 0 < S512x512.numel
  inb_S4096x128_S512x128_0_0 : ∀ a, (![0, 0] : Fin 2 → Nat) a + S512x128.size a ≤ S4096x128.size a
  h_S512x128 : 0 < S512x128.numel
  inb_S512x4096_S512x512_0_512 : ∀ a, (![0, 512] : Fin 2 → Nat) a + S512x512.size a ≤ S512x4096.size a
  inb_S4096x128_S512x128_512_0 : ∀ a, (![512, 0] : Fin 2 → Nat) a + S512x128.size a ≤ S4096x128.size a
  inb_S512x4096_S512x512_0_1024 : ∀ a, (![0, 1024] : Fin 2 → Nat) a + S512x512.size a ≤ S512x4096.size a
  inb_S4096x128_S512x128_1024_0 : ∀ a, (![1024, 0] : Fin 2 → Nat) a + S512x128.size a ≤ S4096x128.size a
  inb_S512x4096_S512x512_0_1536 : ∀ a, (![0, 1536] : Fin 2 → Nat) a + S512x512.size a ≤ S512x4096.size a
  inb_S4096x128_S512x128_1536_0 : ∀ a, (![1536, 0] : Fin 2 → Nat) a + S512x128.size a ≤ S4096x128.size a
  inb_S512x4096_S512x512_0_2048 : ∀ a, (![0, 2048] : Fin 2 → Nat) a + S512x512.size a ≤ S512x4096.size a
  inb_S4096x128_S512x128_2048_0 : ∀ a, (![2048, 0] : Fin 2 → Nat) a + S512x128.size a ≤ S4096x128.size a
  inb_S512x4096_S512x512_0_2560 : ∀ a, (![0, 2560] : Fin 2 → Nat) a + S512x512.size a ≤ S512x4096.size a
  inb_S4096x128_S512x128_2560_0 : ∀ a, (![2560, 0] : Fin 2 → Nat) a + S512x128.size a ≤ S4096x128.size a
  inb_S512x4096_S512x512_0_3072 : ∀ a, (![0, 3072] : Fin 2 → Nat) a + S512x512.size a ≤ S512x4096.size a
  inb_S4096x128_S512x128_3072_0 : ∀ a, (![3072, 0] : Fin 2 → Nat) a + S512x128.size a ≤ S4096x128.size a
  inb_S512x4096_S512x512_0_3584 : ∀ a, (![0, 3584] : Fin 2 → Nat) a + S512x512.size a ≤ S512x4096.size a
  inb_S4096x128_S512x128_3584_0 : ∀ a, (![3584, 0] : Fin 2 → Nat) a + S512x128.size a ≤ S4096x128.size a
  inb_S512x256_S512x256_0_0 : ∀ a, (![0, 0] : Fin 2 → Nat) a + S512x256.size a ≤ S512x256.size a
  h_S512x256 : 0 < S512x256.numel
  inb_S512x128_S512x128_0_0 : ∀ a, (![0, 0] : Fin 2 → Nat) a + S512x128.size a ≤ S512x128.size a
  shapeCasts_S512x128_S512x128 : S512x128.ShapeCasts S512x128
  dot_S512x512_S512x128_S512x128_1_0_0_1_n_n_wf : DotDims.WF S512x512 S512x128 S512x128 [1] [0] [0] [1] [] []
  dot_S512x128_S128x256_S512x256_1_0_0_1_n_n_wf : DotDims.WF S512x128 S128x256 S512x256 [1] [0] [0] [1] [] []
  dot_S512x256_S256x128_S512x128_1_0_0_1_n_n_wf : DotDims.WF S512x256 S256x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .f32 = 32 ∨ (Rect.block (s := S4096x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S4096x256.size a
  hwx0_4 : ∀ i : grid0.Coords, EltTy.bits .f32 = 32 ∨ (Rect.block (s := S4096x256) S512x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S4096x128.size a
  hwx0_5 : ∀ i : grid0.Coords, EltTy.bits .f32 = 32 ∨ (Rect.block (s := S4096x128) S512x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S4096x128.size a
  hwx1_1 : ∀ i : grid1.Coords, EltTy.bits .f32 = 32 ∨ (Rect.block (s := S4096x128) S4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S4096x128.size a
  hwx1_2 : ∀ i : grid1.Coords, EltTy.bits .f32 = 32 ∨ (Rect.block (s := S4096x128) S512x128.size (cc1_transform_2 i) (hinb1_2 i)).WholeWords (EltTy.packing .f32)

variable [Facts₀]

def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S512x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S512x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S4096x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x4096 : Shape := ⟨2, ![4096, 4096]⟩
abbrev S4096x128 : Shape := ⟨2, ![4096, 128]⟩
abbrev S256x128 : Shape := ⟨2, ![256, 128]⟩
abbrev S128x256 : Shape := ⟨2, ![128, 256]⟩
abbrev S0 : Shape := ⟨1, ![0]⟩
abbrev S_ : Shape := ⟨0, ![]⟩
abbrev S4096x256 : Shape := ⟨2, ![4096, 256]⟩
abbrev S512x512 : Shape := ⟨2, ![512, 512]⟩
abbrev S512x128 : Shape := ⟨2, ![512, 128]⟩
abbrev S512x256 : Shape := ⟨2, ![512, 256]⟩

abbrev nBuf : Space → Nat
  | .hbm => 24
  | .vmem => 16
  | .smem => 0
  | _ => 0

abbrev bufTy : (tb : Table) → Fin (tcTables nBuf tb) → BufTy
  | .hbm, ⟨0, _⟩ => ⟨S4096x4096, .f32⟩
  | .hbm, ⟨1, _⟩ => ⟨S4096x128, .f32⟩
  | .hbm, ⟨2, _⟩ => ⟨S256x128, .f32⟩
  | .hbm, ⟨3, _⟩ => ⟨S128x256, .f32⟩
  | .hbm, ⟨4, _⟩ => ⟨S0, .i32⟩
  | .hbm, ⟨5, _⟩ => ⟨S0, .i32⟩
  | .hbm, ⟨6, _⟩ => ⟨S0, .i32⟩
  | .hbm, ⟨7, _⟩ => ⟨S0, .i32⟩
  | .hbm, ⟨8, _⟩ => ⟨S128x256, .f32⟩
  | .hbm, ⟨9, _⟩ => ⟨S256x128, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x128, .f32⟩
  | .hbm, ⟨15, _⟩ => ⟨S4096x128, .f32⟩
  | .hbm, ⟨16, _⟩ => ⟨S4096x256, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x256, .f32⟩
  | .hbm, ⟨22, _⟩ => ⟨S4096x256, .f32⟩
  | .hbm, ⟨23, _⟩ => ⟨S4096x128, .f32⟩
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S512x128, .f32⟩
  | .local _ .vmem, ⟨4, _⟩ => ⟨S128x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x512, .f32⟩
  | .local _ .vmem, ⟨9, _⟩ => ⟨S512x512, .f32⟩
  | .local _ .vmem, ⟨10, _⟩ => ⟨S512x256, .f32⟩
  | .local _ .vmem, ⟨11, _⟩ => ⟨S512x256, .f32⟩
  | .local _ .vmem, ⟨12, _⟩ => ⟨S256x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_4 : Ref sig .tc := ⟨.hbm, 17, rfl⟩
abbrev main_v7 : Ref sig .tc := ⟨.hbm, 18, rfl⟩
abbrev main_v8 : Ref sig .tc := ⟨.hbm, 19, rfl⟩
abbrev main_cst_5 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_11 : BitVec 32 := 0#32
  let v18 : BitVec 1 := Scalar.cmpi .ne v17 c0_i32_11
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_11 : BitVec 32 := 0#32
  let v18 : BitVec 1 := Scalar.cmpi .ne v17 c0_i32_11
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  hz_S0 : S0.numel = 0
  transposes_S256x128_S128x256_1_0 : S256x128.Transposes [1, 0] S128x256
  transposes_S128x256_S256x128_1_0 : S128x256.Transposes [1, 0] S256x128
  bcast_S_S4096x4096 : S_.BroadcastsInDim S4096x4096 (![] : Fin 0 → Fin S4096x4096.rank)
  bcast_S_S4096x128 : S_.BroadcastsInDim S4096x128 (![] : Fin 0 → Fin S4096x128.rank)
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  bcast_S_S4096x256 : S_.BroadcastsInDim S4096x256 (![] : Fin 0 → Fin S4096x256.rank)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  scatter_S4096x4096_S0_S4096x4096_01_n_n_0_wf : ScatterDims.WF S4096x4096 S0 S4096x4096 [0, 1] [] [] 0
  scatter_S4096x128_S0_S4096x128_01_n_n_0_wf : ScatterDims.WF S4096x128 S0 S4096x128 [0, 1] [] [] 0
  dot_S512x512_S512x128_S512x128_1_0_0_1_n_n_wf : DotDims.WF S512x512 S512x128 S512x128 [1] [0] [0] [1] [] []
  dot_S512x128_S128x256_S512x256_1_0_0_1_n_n_wf : DotDims.WF S512x128 S128x256 S512x256 [1] [0] [0] [1] [] []
  scatter_S4096x256_S0_S4096x256_01_n_n_0_wf : ScatterDims.WF S4096x256 S0 S4096x256 [0, 1] [] [] 0
  dot_S512x256_S256x128_S512x128_1_0_0_1_n_n_wf : DotDims.WF S512x256 S256x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x4096.size a
  hwx0_0 : ∀ i : grid0.Coords, EltTy.bits .f32 = 32 ∨ (Rect.block (s := S4096x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S4096x128.size a
  hwx0_1 : ∀ i : grid0.Coords, EltTy.bits .f32 = 32 ∨ (Rect.block (s := S4096x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S4096x256.size a
  hwx0_3 : ∀ i : grid0.Coords, EltTy.bits .f32 = 32 ∨ (Rect.block (s := S4096x256) S512x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x4096.size a
  hwx1_0 : ∀ i : grid1.Coords, EltTy.bits .f32 = 32 ∨ (Rect.block (s := S4096x4096) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S4096x256.size a
  hwx1_1 : ∀ i : grid1.Coords, EltTy.bits .f32 = 32 ∨ (Rect.block (s := S4096x256) S512x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S4096x128.size a
  hwx1_3 : ∀ i : grid1.Coords, EltTy.bits .f32 = 32 ∨ (Rect.block (s := S4096x128) S512x128.size (cc1_transform_3 i) (hinb1_3 i)).WholeWords (EltTy.packing .f32)

variable [Facts₀]

def scatter_S4096x4096_S0_S4096x4096_01_n_n_0 : ScatterDims S4096x4096 S0 S4096x4096 where
  updateWindowDims := [0, 1]
  insertedWindowDims := []
  scatterDimsToOperandDims := []
  indexVectorDim := 0
  wf := scatter_S4096x4096_S0_S4096x4096_01_n_n_0_wf
def scatter_S4096x128_S0_S4096x128_01_n_n_0 : ScatterDims S4096x128 S0 S4096x128 where
  updateWindowDims := [0, 1]
  insertedWindowDims := []
  scatterDimsToOperandDims := []
  indexVectorDim := 0
  wf := scatter_S4096x128_S0_S4096x128_01_n_n_0_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def scatter_S4096x256_S0_S4096x256_01_n_n_0 : ScatterDims S4096x256 S0 S4096x256 where
  updateWindowDims := [0, 1]
  insertedWindowDims := []
  scatterDimsToOperandDims := []
  indexVectorDim := 0
  wf := scatter_S4096x256_S0_S4096x256_01_n_n_0_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

abbrev win0_0 : Pipeline.Window sig grid0 :=
  Pipeline.Window.ofSpec (Memref.whole main_v3) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v8) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== Proof.Spec.lean ====
/-
  The two graph-convolution layers as ONE function of the four argument arrays, tile by tile.

  With g : [4096, 4096], z : [4096, 128], W1 : [256, 128], W2 : [128, 256] and the rows cut into eight tiles of 512:
    * row tile i of the hidden layer is  z1_i = max( ((0 + T(i,0)) + T(i,1)) + … + T(i,7), 0 )  where
      T(i,k) = (g[i,k] · z[k]) · W1ᵀ  is the product of the (i,k) block of g (512 × 512) with row tile k of z, times W1ᵀ;
    * p_i = z1_i · W2ᵀ;
    * row tile i of the result is  logistic( ((0 + g[i,0] · p_0) + g[i,1] · p_1) + … + g[i,7] · p_7 ).
  The sums are kept in exactly this left-nested order, and each matrix product is kept as one product into a zero
  accumulator: both programs compute these very terms, so no law of the extended reals is needed to compare them.
-/
import Idealize.ShloMosaic.PureOps
import Idealize.ShloMosaic.Lib.ValueIdx

noncomputable section

namespace Cert.GcnSpec

open Idealize.ShloMosaic Idealize.ShloMosaic.ValueIdx

variable {F : FTy → Type} [FloatOps F]

/-! ## Shapes and the three products -/

abbrev SG : Shape := ⟨2, ![4096, 4096]⟩
abbrev SZ : Shape := ⟨2, ![4096, 128]⟩
abbrev SW1 : Shape := ⟨2, ![256, 128]⟩
abbrev SW2 : Shape := ⟨2, ![128, 256]⟩
abbrev SH : Shape := ⟨2, ![4096, 256]⟩
abbrev TG : Shape := ⟨2, ![512, 512]⟩
abbrev TZ : Shape := ⟨2, ![512, 128]⟩
abbrev TH : Shape := ⟨2, ![512, 256]⟩

/-- [512, 512] × [512, 128] → [512, 128]: a block of g times a row tile. -/
def dGZ : DotDims TG TZ TZ where
  lhsContracting := [1]
  rhsContracting := [0]
  lhsNonContracting := [0]
  rhsNonContracting := [1]
  lhsBatch := []
  rhsBatch := []
  wf := by decide

/-- [512, 128] × [128, 256] → [512, 256]: times W1ᵀ. -/
def dW1 : DotDims TZ SW2 TH where
  lhsContracting := [1]
  rhsContracting := [0]
  lhsNonContracting := [0]
  rhsNonContracting := [1]
  lhsBatch := []
  rhsBatch := []
  wf := by decide

/-- [512, 256] × [256, 128] → [512, 128]: times W2ᵀ. -/
def dW2 : DotDims TH SW1 TZ where
  lhsContracting := [1]
  rhsContracting := [0]
  lhsNonContracting := [0]
  rhsNonContracting := [1]
  lhsBatch := []
  rhsBatch := []
  wf := by decide

/-! ## Tiles of an array, and an array from its tiles -/

/-- The natural number n as one of the eight tile numbers (n itself when n < 8). -/
def fin8 (n : Nat) : Fin 8 := ⟨n % 8, Nat.mod_lt _ (by decide)⟩

/-- Block (i, k) of a [4096, 4096] array: rows 512·i …, columns 512·k …. -/
def gT {α : Type} (g : SG.Idx → α) (i k : Fin 8) : TG.Idx → α := fun y =>
  g (ix2 (⟨512 * i.val + (y 0).val, by have := idx2_lt0 y; have := i.isLt; omega⟩ : Fin 4096)
         (⟨512 * k.val + (y 1).val, by have := idx2_lt1 y; have := k.isLt; omega⟩ : Fin 4096))

/-- Row tile k of a [4096, n] array: rows 512·k …, every column. -/
def rowT {α : Type} {n : Nat} (x : (⟨2, ![4096, n]⟩ : Shape).Idx → α) (k : Fin 8) : (⟨2, ![512, n]⟩ : Shape).Idx → α := fun y =>
  x (ix2 (⟨512 * k.val + (y 0).val, by have := idx2_lt0 y; have := k.isLt; omega⟩ : Fin 4096) (⟨(y 1).val, idx2_lt1 y⟩ : Fin n))

/-- The [4096, n] array whose row tile i is `t i`. -/
def stack {α : Type} {n : Nat} (t : Fin 8 → (⟨2, ![512, n]⟩ : Shape).Idx → α) : (⟨2, ![4096, n]⟩ : Shape).Idx → α := fun j =>
  t ⟨(j 0).val / 512, by have := idx2_lt0 j; omega⟩
    (ix2 (⟨(j 0).val % 512, Nat.mod_lt _ (by decide)⟩ : Fin 512) (⟨(j 1).val, idx2_lt1 j⟩ : Fin n))

/-- Row tile k of a stacked array is the k-th tile. -/
theorem rowT_stack {α : Type} {n : Nat} (t : Fin 8 → (⟨2, ![512, n]⟩ : Shape).Idx → α) (k : Fin 8) : rowT (stack t) k = t k := by
  funext y
  have h0 := idx2_lt0 y
  have hk := k.isLt
  unfold rowT stack
  have e1 : (512 * k.val + (y 0).val) / 512 = k.val := by omega
  have e2 : (512 * k.val + (y 0).val) % 512 = (y 0).val := by omega
  have ek : (⟨(512 * k.val + (y 0).val) / 512, by omega⟩ : Fin 8) = k := Fin.ext e1
  show t ⟨(512 * k.val + (y 0).val) / 512, _⟩ (ix2 ⟨(512 * k.val + (y 0).val) % 512, _⟩ ⟨(y 1).val, _⟩) = t k y
  rw [ek]
  refine congrArg (t k) ?_
  funext a
  match a with
  | ⟨0, _⟩ => exact Fin.ext e2
  | ⟨1, _⟩ => rfl

/-! ## The layers -/

/-- W1ᵀ and W2ᵀ. -/
def w1t (w1 : FVec F SW1 .f32) : FVec F SW2 .f32 := transpose SW2 [1, 0] w1 (by decide)
def w2t (w2 : FVec F SW2 .f32) : FVec F SW1 .f32 := transpose SW1 [1, 0] w2 (by decide)

/-- The all-zero tile an accumulation starts from. -/
def zeroTH : FVec F TH .f32 := broadcast TH (Scalar.ofBits .f32 0x00000000#32)
def zeroTZ : FVec F TZ .f32 := broadcast TZ (Scalar.ofBits .f32 0x00000000#32)

/-- T(i,k) = (g[i,k] · z[k]) · W1ᵀ. -/
def term1 (g : FVec F SG .f32) (z : FVec F SZ .f32) (a : FVec F SW2 .f32) (i k : Fin 8) : FVec F TH .f32 :=
  matmul dW1 none (matmul dGZ none (gT g i k) (rowT z k) (constant TZ .f32 0x00000000#32)) a (constant TH .f32 0x00000000#32)

/-- The first n terms of row tile i's sum, added to zero from the left. -/
def acc1 (g : FVec F SG .f32) (z : FVec F SZ .f32) (a : FVec F SW2 .f32) (i : Fin 8) : Nat → FVec F TH .f32
  | 0 => zeroTH
  | n + 1 => addf (acc1 g z a i n) (term1 g z a i (fin8 n))

/-- Row tile i of the hidden layer. -/
def z1T (g : FVec F SG .f32) (z : FVec F SZ .f32) (a : FVec F SW2 .f32) (i : Fin 8) : FVec F TH .f32 :=
  maximumf (acc1 g z a i 8) zeroTH

/-- p_i = z1_i · W2ᵀ. -/
def pT (g : FVec F SG .f32) (z : FVec F SZ .f32) (a : FVec F SW2 .f32) (b : FVec F SW1 .f32) (i : Fin 8) : FVec F TZ .f32 :=
  matmul dW2 none (z1T g z a i) b (constant TZ .f32 0x00000000#32)

/-- g[i,k] · p_k. -/
def term2 (g : FVec F SG .f32) (p : Fin 8 → FVec F TZ .f32) (i k : Fin 8) : FVec F TZ .f32 :=
  matmul dGZ none (gT g i k) (p k) (constant TZ .f32 0x00000000#32)

/-- The first n terms of row tile i's second-layer sum, added to zero from the left. -/
def acc2 (g : FVec F SG .f32) (p : Fin 8 → FVec F TZ .f32) (i : Fin 8) : Nat → FVec F TZ .f32
  | 0 => zeroTZ
  | n + 1 => addf (acc2 g p i n) (term2 g p i (fin8 n))

/-- Row tile i of the result. -/
def resT (g : FVec F SG .f32) (p : Fin 8 → FVec F TZ .f32) (i : Fin 8) : FVec F TZ .f32 :=
  logistic (acc2 g p i 8)

/-- The hidden layer, relu(g · z · W1ᵀ), as an array. -/
def z1 (g : FVec F SG .f32) (z : FVec F SZ .f32) (w1 : FVec F SW1 .f32) : FVec F SH .f32 :=
  stack (z1T g z (w1t w1))

/-- The result, logistic(g · z1 · W2ᵀ), as an array. -/
def res (g : FVec F SG .f32) (z : FVec F SZ .f32) (w1 : FVec F SW1 .f32) (w2 : FVec F SW2 .f32) : FVec F SZ .f32 :=
  stack (resT g (pT g z (w1t w1) (w2t w2)))

end Cert.GcnSpec

end
-- ==== Proof.KDots.lean ====
/-
  The kernel's side, first part: the kernel's matrix-product records and transposes are the common function's, and the
  tiles the kernel body loads — a block of the row slab of g, a row tile of z or of p — are the common function's tiles.
-/
import proofs.«161882_g2000703798406267_pallasbulk_306_14_alg».proof.Proof.Spec
import proofs.«161882_g2000703798406267_pallasbulk_306_14_alg».proof.Proof.Gen.KernelIdeal.Frame

noncomputable section

namespace Cert.KernelIdeal.KV

open Idealize.ShloMosaic Idealize.ShloMosaic.ValueIdx
open Cert.KernelIdeal Cert.KernelIdeal.Gen
open Cert.GcnSpec (gT rowT stack fin8)

variable {F : FTy → Type} [FloatOps F]

/-! ## The three products and the two transposes are the common function's -/

theorem dGZ_eq : dot_S512x512_S512x128_S512x128_1_0_0_1_n_n = Cert.GcnSpec.dGZ := rfl
theorem dW1_eq : dot_S512x128_S128x256_S512x256_1_0_0_1_n_n = Cert.GcnSpec.dW1 := rfl
theorem dW2_eq : dot_S512x256_S256x128_S512x128_1_0_0_1_n_n = Cert.GcnSpec.dW2 := rfl

theorem w1t_eq (v0 : Vec F S256x128 .f32) : k0_pay3 v0 = Cert.GcnSpec.w1t v0 := rfl
theorem w2t_eq (v2 : Vec F S128x256 .f32) : k0_pay4 v2 = Cert.GcnSpec.w2t v2 := rfl

/-- The zero offsets, however spelt. -/
theorem hz : (![0, 0] : Fin 2 → Nat) = fun _ => 0 := funext fun a => by fin_cases a <;> rfl

/-! ## Tiles read through rectangles -/

/-- Rows 512·t … 512·t + 511 of a [4096, 4096] array, every column: the slab a grid point works on. -/
def slab {α : Type} (g : S4096x4096.Idx → α) (t : Fin 8) : S512x4096.Idx → α := fun y =>
  g (ix2 (⟨512 * t.val + (y 0).val, by have := idx2_lt0 y; have := t.isLt; omega⟩ : Fin 4096) (⟨(y 1).val, idx2_lt1 y⟩ : Fin 4096))

/-- Columns 512·k … of slab t are block (t, k): a unit-stride rectangle at offsets (0, 512·k) reads off + 1·y. -/
theorem ld_slab (g : Vec F S4096x4096 .f32) (t k : Fin 8) (off : Fin 2 → Nat) (h0 : off 0 = 0) (h1 : off 1 = 512 * k.val)
    (inb : ∀ a, off a + S512x512.size a ≤ S512x4096.size a) :
    View.ld (Val := Elt F) (e' := .f32) (slab g t) (Rect.unit (s := S512x4096) off S512x512.size inb) = gT g t k := by
  funext y
  show g _ = g _
  refine congrArg g ?_
  funext a
  match a with
  | ⟨0, _⟩ =>
    refine Fin.ext ?_
    show 512 * t.val + (off 0 + 1 * (y 0).val) = 512 * t.val + (y 0).val
    omega
  | ⟨1, _⟩ =>
    refine Fin.ext ?_
    show off 1 + 1 * (y 1).val = 512 * k.val + (y 1).val
    omega

/-- Rows 512·k … of a [4096, 128] array are its row tile k. -/
theorem ld_rows (x : Vec F S4096x128 .f32) (k : Fin 8) (off : Fin 2 → Nat) (h0 : off 0 = 512 * k.val) (h1 : off 1 = 0)
    (inb : ∀ a, off a + S512x128.size a ≤ S4096x128.size a) :
    View.ld (Val := Elt F) (e' := .f32) x (Rect.unit (s := S4096x128) off S512x128.size inb) = rowT x k := by
  funext y
  show x _ = x _
  refine congrArg x ?_
  funext a
  match a with
  | ⟨0, _⟩ =>
    refine Fin.ext ?_
    show off 0 + 1 * (y 0).val = 512 * k.val + (y 0).val
    omega
  | ⟨1, _⟩ =>
    refine Fin.ext ?_
    show off 1 + 1 * (y 1).val = (y 1).val
    omega

end Cert.KernelIdeal.KV

end
-- ==== Proof.KTile0.lean ====
/-
  The kernel's side, second part: what the first kernel's body stores at a grid point — the hidden-layer tile and the
  tile of p — is the common function's tile, term for term.
-/
import proofs.«161882_g2000703798406267_pallasbulk_306_14_alg».proof.Proof.KDots
import Idealize.ShloMosaic.Lib.Pipeline.Value

noncomputable section

namespace Cert.KernelIdeal.KV

open Idealize.ShloMosaic Idealize.ShloMosaic.ValueIdx
open Cert.KernelIdeal Cert.KernelIdeal.Gen
open Cert.GcnSpec (gT rowT stack fin8)

variable {F : FTy → Type} [FloatOps F]

/-! ## What the first kernel's body leaves at a grid point is the common function's tile -/

/-- The hidden-layer tile: the one whole-buffer store leaves its payload, whose loads are the tiles of g and z and whose
    operations are, term for term, the common function's left-nested sum under the maximum with zero. -/
theorem out0_4_eq (g : Vec F S4096x4096 .f32) (z : Vec F S4096x128 .f32) (w1 : Vec F S256x128 .f32) (w2 : Vec F S128x256 .f32) (t : Fin 8) :
    out0_4 (slab g t) z w1 w2 = Cert.GcnSpec.z1T g z (Cert.GcnSpec.w1t w1) t := by
  have eg0 : View.ld (Val := Elt F) (e' := .f32) (slab g t) r0_2 = gT g t (fin8 0) := ld_slab g t (fin8 0) _ rfl rfl _
  have ez0 : View.ld (Val := Elt F) (e' := .f32) z r0_3 = rowT z (fin8 0) := ld_rows z (fin8 0) _ rfl rfl _
  have eg1 : View.ld (Val := Elt F) (e' := .f32) (slab g t) r0_4 = gT g t (fin8 1) := ld_slab g t (fin8 1) _ rfl rfl _
  have ez1 : View.ld (Val := Elt F) (e' := .f32) z r0_5 = rowT z (fin8 1) := ld_rows z (fin8 1) _ rfl rfl _
  have eg2 : View.ld (Val := Elt F) (e' := .f32) (slab g t) r0_6 = gT g t (fin8 2) := ld_slab g t (fin8 2) _ rfl rfl _
  have ez2 : View.ld (Val := Elt F) (e' := .f32) z r0_7 = rowT z (fin8 2) := ld_rows z (fin8 2) _ rfl rfl _
  have eg3 : View.ld (Val := Elt F) (e' := .f32) (slab g t) r0_8 = gT g t (fin8 3) := ld_slab g t (fin8 3) _ rfl rfl _
  have ez3 : View.ld (Val := Elt F) (e' := .f32) z r0_9 = rowT z (fin8 3) := ld_rows z (fin8 3) _ rfl rfl _
  have eg4 : View.ld (Val := Elt F) (e' := .f32) (slab g t) r0_10 = gT g t (fin8 4) := ld_slab g t (fin8 4) _ rfl rfl _
  have ez4 : View.ld (Val := Elt F) (e' := .f32) z r0_11 = rowT z (fin8 4) := ld_rows z (fin8 4) _ rfl rfl _
  have eg5 : View.ld (Val := Elt F) (e' := .f32) (slab g t) r0_12 = gT g t (fin8 5) := ld_slab g t (fin8 5) _ rfl rfl _
  have ez5 : View.ld (Val := Elt F) (e' := .f32) z r0_13 = rowT z (fin8 5) := ld_rows z (fin8 5) _ rfl rfl _
  have eg6 : View.ld (Val := Elt F) (e' := .f32) (slab g t) r0_14 = gT g t (fin8 6) := ld_slab g t (fin8 6) _ rfl rfl _
  have ez6 : View.ld (Val := Elt F) (e' := .f32) z r0_15 = rowT z (fin8 6) := ld_rows z (fin8 6) _ rfl rfl _
  have eg7 : View.ld (Val := Elt F) (e' := .f32) (slab g t) r0_16 = gT g t (fin8 7) := ld_slab g t (fin8 7) _ rfl rfl _
  have ez7 : View.ld (Val := Elt F) (e' := .f32) z r0_17 = rowT z (fin8 7) := ld_rows z (fin8 7) _ rfl rfl _
  have ew : View.ld (Val := Elt F) (e' := .f32) w1 r0_0 = w1 := View.ld_unit_zero hz _ w1
  unfold out0_4
  rw [View.canon_unit_zero hz]
  rw [eg0, eg1, eg2, eg3, eg4, eg5, eg6, eg7, ez0, ez1, ez2, ez3, ez4, ez5, ez6, ez7, ew]
  rfl

/-- The tile of p: the same hidden-layer tile times W2ᵀ. -/
theorem out0_5_eq (g : Vec F S4096x4096 .f32) (z : Vec F S4096x128 .f32) (w1 : Vec F S256x128 .f32) (w2 : Vec F S128x256 .f32) (t : Fin 8) :
    out0_5 (slab g t) z w1 w2 = Cert.GcnSpec.pT g z (Cert.GcnSpec.w1t w1) (Cert.GcnSpec.w2t w2) t := by
  have eg0 : View.ld (Val := Elt F) (e' := .f32) (slab g t) r0_2 = gT g t (fin8 0) := ld_slab g t (fin8 0) _ rfl rfl _
  have ez0 : View.ld (Val := Elt F) (e' := .f32) z r0_3 = rowT z (fin8 0) := ld_rows z (fin8 0) _ rfl rfl _
  have eg1 : View.ld (Val := Elt F) (e' := .f32) (slab g t) r0_4 = gT g t (fin8 1) := ld_slab g t (fin8 1) _ rfl rfl _
  have ez1 : View.ld (Val := Elt F) (e' := .f32) z r0_5 = rowT z (fin8 1) := ld_rows z (fin8 1) _ rfl rfl _
  have eg2 : View.ld (Val := Elt F) (e' := .f32) (slab g t) r0_6 = gT g t (fin8 2) := ld_slab g t (fin8 2) _ rfl rfl _
  have ez2 : View.ld (Val := Elt F) (e' := .f32) z r0_7 = rowT z (fin8 2) := ld_rows z (fin8 2) _ rfl rfl _
  have eg3 : View.ld (Val := Elt F) (e' := .f32) (slab g t) r0_8 = gT g t (fin8 3) := ld_slab g t (fin8 3) _ rfl rfl _
  have ez3 : View.ld (Val := Elt F) (e' := .f32) z r0_9 = rowT z (fin8 3) := ld_rows z (fin8 3) _ rfl rfl _
  have eg4 : View.ld (Val := Elt F) (e' := .f32) (slab g t) r0_10 = gT g t (fin8 4) := ld_slab g t (fin8 4) _ rfl rfl _
  have ez4 : View.ld (Val := Elt F) (e' := .f32) z r0_11 = rowT z (fin8 4) := ld_rows z (fin8 4) _ rfl rfl _
  have eg5 : View.ld (Val := Elt F) (e' := .f32) (slab g t) r0_12 = gT g t (fin8 5) := ld_slab g t (fin8 5) _ rfl rfl _
  have ez5 : View.ld (Val := Elt F) (e' := .f32) z r0_13 = rowT z (fin8 5) := ld_rows z (fin8 5) _ rfl rfl _
  have eg6 : View.ld (Val := Elt F) (e' := .f32) (slab g t) r0_14 = gT g t (fin8 6) := ld_slab g t (fin8 6) _ rfl rfl _
  have ez6 : View.ld (Val := Elt F) (e' := .f32) z r0_15 = rowT z (fin8 6) := ld_rows z (fin8 6) _ rfl rfl _
  have eg7 : View.ld (Val := Elt F) (e' := .f32) (slab g t) r0_16 = gT g t (fin8 7) := ld_slab g t (fin8 7) _ rfl rfl _
  have ez7 : View.ld (Val := Elt F) (e' := .f32) z r0_17 = rowT z (fin8 7) := ld_rows z (fin8 7) _ rfl rfl _
  have ew : View.ld (Val := Elt F) (e' := .f32) w1 r0_0 = w1 := View.ld_unit_zero hz _ w1
  have ev : View.ld (Val := Elt F) (e' := .f32) w2 r0_1 = w2 := View.ld_unit_zero hz _ w2
  unfold out0_5
  rw [View.canon_unit_zero hz]
  rw [eg0, eg1, eg2, eg3, eg4, eg5, eg6, eg7, ez0, ez1, ez2, ez3, ez4, ez5, ez6, ez7, ew, ev]
  rfl

end Cert.KernelIdeal.KV

end
-- ==== Proof.KArr0.lean ====
/-
  The kernel's side, fourth part: from blocks to arrays in the first pipeline. Each input window's block at a grid point is
  the slab of g or a whole array; what a point writes back is a row tile of the common function's hidden layer and of its
  p array; the eight blocks cover each array, so the arrays end holding those functions of the region-entry contents.
-/
import proofs.«161882_g2000703798406267_pallasbulk_306_14_alg».proof.Proof.KTile0

noncomputable section

namespace Cert.KernelIdeal.KV

open Idealize.ShloMosaic Idealize.ShloMosaic.ValueIdx
open Cert.KernelIdeal Cert.KernelIdeal.Gen
open Idealize.ShloMosaic.TcCoe
open Idealize.ShloMosaic.Pipeline (Dat)
open Cert.GcnSpec (gT rowT stack fin8)

variable {F : FTy → Type} [FloatOps F]

variable (V : (c : Dev nD) → (b : Ref sig .tc) → Buf (Elt F) ((c : Thread nD τ).loc b))

/-! ## The first pipeline's blocks -/

/-- A point of the eight-point grid as a tile number. -/
def tile0 (t : Fin cfg0.N) : Fin 8 := ⟨t.val, lt_of_lt_of_eq t.isLt N_0⟩

/-- The index maps, decided over the grid: g's window and the two result windows move down the rows with the point, and the
    windows of z, W1 and W2 stay at block (0, 0). -/
theorem idx0 : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

/-- g's block at point t is the row slab t: an element of a block sits at block index × block size + its own coordinate. -/
theorem blk0_0 (X : Vec F S4096x4096 .f32) (t : Fin cfg0.N) :
    ((cfg0.win 0).blk t).view.read (Elt F) X = slab X (tile0 t) := by
  obtain ⟨⟨h0, h1⟩, -⟩ := idx0 t
  funext y
  show X (((cfg0.win 0).blk t).view.emb y) = X _
  refine congrArg X ?_
  funext a
  match a with
  | ⟨0, _⟩ =>
    refine Fin.ext ?_
    show win0_0.index t (0 : Fin 2) * 512 + 1 * (y 0).val = 512 * t.val + (y 0).val
    omega
  | ⟨1, _⟩ =>
    refine Fin.ext ?_
    show win0_0.index t (1 : Fin 2) * 4096 + 1 * (y 1).val = (y 1).val
    omega

/-- The blocks of z, W1 and W2 are the whole arrays. -/
theorem blk0_1 (X : Vec F S4096x128 .f32) (t : Fin cfg0.N) : ((cfg0.win 1).blk t).view.read (Elt F) X = X := by
  obtain ⟨-, ⟨h0, h1⟩, -⟩ := idx0 t
  funext y
  show X (((cfg0.win 1).blk t).view.emb y) = X y
  refine congrArg X ?_
  funext a
  match a with
  | ⟨0, _⟩ =>
    refine Fin.ext ?_
    show win0_1.index t (0 : Fin 2) * 4096 + 1 * (y 0).val = (y 0).val
    omega
  | ⟨1, _⟩ =>
    refine Fin.ext ?_
    show win0_1.index t (1 : Fin 2) * 128 + 1 * (y 1).val = (y 1).val
    omega

theorem blk0_2 (X : Vec F S256x128 .f32) (t : Fin cfg0.N) : ((cfg0.win 2).blk t).view.read (Elt F) X = X := by
  obtain ⟨-, -, ⟨h0, h1⟩, -⟩ := idx0 t
  funext y
  show X (((cfg0.win 2).blk t).view.emb y) = X y
  refine congrArg X ?_
  funext a
  match a with
  | ⟨0, _⟩ =>
    refine Fin.ext ?_
    show win0_2.index t (0 : Fin 2) * 256 + 1 * (y 0).val = (y 0).val
    omega
  | ⟨1, _⟩ =>
    refine Fin.ext ?_
    show win0_2.index t (1 : Fin 2) * 128 + 1 * (y 1).val = (y 1).val
    omega

theorem blk0_3 (X : Vec F S128x256 .f32) (t : Fin cfg0.N) : ((cfg0.win 3).blk t).view.read (Elt F) X = X := by
  obtain ⟨-, -, -, ⟨h0, h1⟩, -⟩ := idx0 t
  funext y
  show X (((cfg0.win 3).blk t).view.emb y) = X y
  refine congrArg X ?_
  funext a
  match a with
  | ⟨0, _⟩ =>
    refine Fin.ext ?_
    show win0_3.index t (0 : Fin 2) * 128 + 1 * (y 0).val = (y 0).val
    omega
  | ⟨1, _⟩ =>
    refine Fin.ext ?_
    show win0_3.index t (1 : Fin 2) * 256 + 1 * (y 1).val = (y 1).val
    omega

/-- Block t of the hidden-layer array is its row tile t … -/
theorem blk0_4 (X : Vec F S4096x256 .f32) (t : Fin cfg0.N) :
    ((cfg0.win 4).blk t).view.read (Elt F) X = rowT X (tile0 t) := by
  obtain ⟨-, -, -, -, ⟨h0, h1⟩, -⟩ := idx0 t
  funext y
  show X (((cfg0.win 4).blk t).view.emb y) = X _
  refine congrArg X ?_
  funext a
  match a with
  | ⟨0, _⟩ =>
    refine Fin.ext ?_
    show win0_4.index t (0 : Fin 2) * 512 + 1 * (y 0).val = 512 * t.val + (y 0).val
    omega
  | ⟨1, _⟩ =>
    refine Fin.ext ?_
    show win0_4.index t (1 : Fin 2) * 256 + 1 * (y 1).val = (y 1).val
    omega

/-- … and block t of the p array is its row tile t. -/
theorem blk0_5 (X : Vec F S4096x128 .f32) (t : Fin cfg0.N) :
    ((cfg0.win 5).blk t).view.read (Elt F) X = rowT X (tile0 t) := by
  obtain ⟨-, -, -, -, -, ⟨h0, h1⟩⟩ := idx0 t
  funext y
  show X (((cfg0.win 5).blk t).view.emb y) = X _
  refine congrArg X ?_
  funext a
  match a with
  | ⟨0, _⟩ =>
    refine Fin.ext ?_
    show win0_5.index t (0 : Fin 2) * 512 + 1 * (y 0).val = 512 * t.val + (y 0).val
    omega
  | ⟨1, _⟩ =>
    refine Fin.ext ?_
    show win0_5.index t (1 : Fin 2) * 128 + 1 * (y 1).val = (y 1).val
    omega

/-! ## What each point writes back, and the arrays the first pipeline leaves -/

/-- The hidden layer as the region-entry contents give it. -/
abbrev z1Of (c : Dev nD) : Vec F S4096x256 .f32 :=
  Cert.GcnSpec.z1 (V c main_arg0) (V c main_arg1) (V c main_arg2)

/-- The p array as the region-entry contents give it: its row tile i is p_i. -/
abbrev pOf (c : Dev nD) : Vec F S4096x128 .f32 :=
  stack (Cert.GcnSpec.pT (V c main_arg0) (V c main_arg1) (Cert.GcnSpec.w1t (V c main_arg2)) (Cert.GcnSpec.w2t (V c main_arg3)))

/-- Point t writes back row tile t of the hidden layer. -/
theorem flushed0_4 (c : Dev nD) (t : Fin cfg0.N) :
    (dat0 V c).flushed 4 t = ((cfg0.win 4).blk t).view.read (Elt F) (z1Of V c) := by
  show (cfg0.win 4).cut (grid0.coords t) ((dat0 V c).after 4 t) = _
  rw [after0_4]
  have e0 : iblk0 V c 0 t = slab (V c main_arg0) (tile0 t) := blk0_0 (V c main_arg0) t
  have e1 : iblk0 V c 1 t = V c main_arg1 := blk0_1 (V c main_arg1) t
  have e2 : iblk0 V c 2 t = V c main_arg2 := blk0_2 (V c main_arg2) t
  have e3 : iblk0 V c 3 t = V c main_arg3 := blk0_3 (V c main_arg3) t
  rw [e0, e1, e2, e3, out0_4_eq]
  refine ((blk0_4 (z1Of V c) t).trans ?_).symm
  exact Cert.GcnSpec.rowT_stack _ (tile0 t)

/-- Point t writes back row tile t of the p array. -/
theorem flushed0_5 (c : Dev nD) (t : Fin cfg0.N) :
    (dat0 V c).flushed 5 t = ((cfg0.win 5).blk t).view.read (Elt F) (pOf V c) := by
  show (cfg0.win 5).cut (grid0.coords t) ((dat0 V c).after 5 t) = _
  rw [after0_5]
  have e0 : iblk0 V c 0 t = slab (V c main_arg0) (tile0 t) := blk0_0 (V c main_arg0) t
  have e1 : iblk0 V c 1 t = V c main_arg1 := blk0_1 (V c main_arg1) t
  have e2 : iblk0 V c 2 t = V c main_arg2 := blk0_2 (V c main_arg2) t
  have e3 : iblk0 V c 3 t = V c main_arg3 := blk0_3 (V c main_arg3) t
  rw [e0, e1, e2, e3, out0_5_eq]
  refine ((blk0_5 (pOf V c) t).trans ?_).symm
  exact Cert.GcnSpec.rowT_stack _ (tile0 t)

/-- An index of the hidden-layer array is in point t's block iff each coordinate is in the block's range on its axis. -/
theorem mem_blk0_4 (t : Fin cfg0.N) (i : S4096x256.Idx) :
    i ∈ ((cfg0.win 4).blk t).view.set ↔ ∀ a : Fin 2, win0_4.index t a * S512x256.size a ≤ (i a).val ∧ (i a).val < win0_4.index t a * S512x256.size a + S512x256.size a := by
  show i ∈ ((View.whole main_v0_0).slice (win0_4.rect t)).set ↔ _
  rw [View.set_slice_whole, Rect.mem_set_unit]
  exact Iff.rfl

theorem mem_blk0_5 (t : Fin cfg0.N) (i : S4096x128.Idx) :
    i ∈ ((cfg0.win 5).blk t).view.set ↔ ∀ a : Fin 2, win0_5.index t a * S512x128.size a ≤ (i a).val ∧ (i a).val < win0_5.index t a * S512x128.size a + S512x128.size a := by
  show i ∈ ((View.whole main_v0_1).slice (win0_5.rect t)).set ↔ _
  rw [View.set_slice_whole, Rect.mem_set_unit]
  exact Iff.rfl

/-- Row r lies in the block of point r / 512: the eight blocks cover the array. -/
theorem covers0_4 (i : S4096x256.Idx) :
    ∃ t : Fin cfg0.N, (cfg0.win 4).flush t = true ∧ i ∈ ((cfg0.win 4).blk t).view.set := by
  have hi0 : (i 0).val < 4096 := idx2_lt0 i
  have hi1 : (i 1).val < 256 := idx2_lt1 i
  have hN : cfg0.N = 8 := N_0
  have ht : (i 0).val / 512 < cfg0.N := by rw [hN]; omega
  obtain ⟨-, -, -, -, ⟨h0, h1⟩, -⟩ := idx0 ⟨(i 0).val / 512, ht⟩
  refine ⟨⟨(i 0).val / 512, ht⟩, flush0_4 _, ?_⟩
  rw [mem_blk0_4]
  intro a
  match a with
  | ⟨0, _⟩ =>
    show win0_4.index ⟨(i 0).val / 512, ht⟩ (0 : Fin 2) * 512 ≤ (i 0).val ∧ (i 0).val < win0_4.index ⟨(i 0).val / 512, ht⟩ (0 : Fin 2) * 512 + 512
    rw [h0]
    show (i 0).val / 512 * 512 ≤ (i 0).val ∧ (i 0).val < (i 0).val / 512 * 512 + 512
    omega
  | ⟨1, _⟩ =>
    show win0_4.index ⟨(i 0).val / 512, ht⟩ (1 : Fin 2) * 256 ≤ (i 1).val ∧ (i 1).val < win0_4.index ⟨(i 0).val / 512, ht⟩ (1 : Fin 2) * 256 + 256
    rw [h1]
    omega

theorem covers0_5 (i : S4096x128.Idx) :
    ∃ t : Fin cfg0.N, (cfg0.win 5).flush t = true ∧ i ∈ ((cfg0.win 5).blk t).view.set := by
  have hi0 : (i 0).val < 4096 := idx2_lt0 i
  have hi1 : (i 1).val < 128 := idx2_lt1 i
  have hN : cfg0.N = 8 := N_0
  have ht : (i 0).val / 512 < cfg0.N := by rw [hN]; omega
  obtain ⟨-, -, -, -, -, ⟨h0, h1⟩⟩ := idx0 ⟨(i 0).val / 512, ht⟩
  refine ⟨⟨(i 0).val / 512, ht⟩, flush0_5 _, ?_⟩
  rw [mem_blk0_5]
  intro a
  match a with
  | ⟨0, _⟩ =>
    show win0_5.index ⟨(i 0).val / 512, ht⟩ (0 : Fin 2) * 512 ≤ (i 0).val ∧ (i 0).val < win0_5.index ⟨(i 0).val / 512, ht⟩ (0 : Fin 2) * 512 + 512
    rw [h0]
    show (i 0).val / 512 * 512 ≤ (i 0).val ∧ (i 0).val < (i 0).val / 512 * 512 + 512
    omega
  | ⟨1, _⟩ =>
    show win0_5.index ⟨(i 0).val / 512, ht⟩ (1 : Fin 2) * 128 ≤ (i 1).val ∧ (i 1).val < win0_5.index ⟨(i 0).val / 512, ht⟩ (1 : Fin 2) * 128 + 128
    rw [h1]
    omega

/-- The hidden-layer array after the first pipeline. -/
theorem arr0_4 (c : Dev nD) : (dat0 V c).arrAt 4 cfg0.N = z1Of V c :=
  (dat0 V c).arrAt_eq_of_cover 4 (z1Of V c) (fun t _ => flushed0_4 V c t) covers0_4

/-- The p array after the first pipeline. -/
theorem arr0_5 (c : Dev nD) : (dat0 V c).arrAt 5 cfg0.N = pOf V c :=
  (dat0 V c).arrAt_eq_of_cover 5 (pOf V c) (fun t _ => flushed0_5 V c t) covers0_5

end Cert.KernelIdeal.KV

end
-- ==== Proof.KTile1.lean ====
/-
  The kernel's side, third part: what the second kernel's body stores at a grid point is the common function's result
  tile, term for term.
-/
import proofs.«161882_g2000703798406267_pallasbulk_306_14_alg».proof.Proof.KDots
import Idealize.ShloMosaic.Lib.Pipeline.Value

noncomputable section

namespace Cert.KernelIdeal.KV

open Idealize.ShloMosaic Idealize.ShloMosaic.ValueIdx
open Cert.KernelIdeal Cert.KernelIdeal.Gen
open Cert.GcnSpec (gT rowT stack fin8)

variable {F : FTy → Type} [FloatOps F]

/-! ## What the second kernel's body leaves at a grid point is the common function's result tile -/

/-- The result tile: the one whole-buffer store leaves its payload, whose loads are the blocks of g and the row tiles of
    the p array, whose same-shape casts are the identity, and whose operations are the common function's left-nested sum
    under the logistic. -/
theorem out1_2_eq (g : Vec F S4096x4096 .f32) (p : Vec F S4096x128 .f32) (t : Fin 8) :
    out1_2 (slab g t) p = Cert.GcnSpec.resT g (fun k => rowT p k) t := by
  have eg0 : View.ld (Val := Elt F) (e' := .f32) (slab g t) r1_0 = gT g t (fin8 0) := ld_slab g t (fin8 0) _ rfl rfl _
  have ez0 : View.ld (Val := Elt F) (e' := .f32) p r1_1 = rowT p (fin8 0) := ld_rows p (fin8 0) _ rfl rfl _
  have eg1 : View.ld (Val := Elt F) (e' := .f32) (slab g t) r1_2 = gT g t (fin8 1) := ld_slab g t (fin8 1) _ rfl rfl _
  have ez1 : View.ld (Val := Elt F) (e' := .f32) p r1_3 = rowT p (fin8 1) := ld_rows p (fin8 1) _ rfl rfl _
  have eg2 : View.ld (Val := Elt F) (e' := .f32) (slab g t) r1_4 = gT g t (fin8 2) := ld_slab g t (fin8 2) _ rfl rfl _
  have ez2 : View.ld (Val := Elt F) (e' := .f32) p r1_5 = rowT p (fin8 2) := ld_rows p (fin8 2) _ rfl rfl _
  have eg3 : View.ld (Val := Elt F) (e' := .f32) (slab g t) r1_6 = gT g t (fin8 3) := ld_slab g t (fin8 3) _ rfl rfl _
  have ez3 : View.ld (Val := Elt F) (e' := .f32) p r1_7 = rowT p (fin8 3) := ld_rows p (fin8 3) _ rfl rfl _
  have eg4 : View.ld (Val := Elt F) (e' := .f32) (slab g t) r1_8 = gT g t (fin8 4) := ld_slab g t (fin8 4) _ rfl rfl _
  have ez4 : View.ld (Val := Elt F) (e' := .f32) p r1_9 = rowT p (fin8 4) := ld_rows p (fin8 4) _ rfl rfl _
  have eg5 : View.ld (Val := Elt F) (e' := .f32) (slab g t) r1_10 = gT g t (fin8 5) := ld_slab g t (fin8 5) _ rfl rfl _
  have ez5 : View.ld (Val := Elt F) (e' := .f32) p r1_11 = rowT p (fin8 5) := ld_rows p (fin8 5) _ rfl rfl _
  have eg6 : View.ld (Val := Elt F) (e' := .f32) (slab g t) r1_12 = gT g t (fin8 6) := ld_slab g t (fin8 6) _ rfl rfl _
  have ez6 : View.ld (Val := Elt F) (e' := .f32) p r1_13 = rowT p (fin8 6) := ld_rows p (fin8 6) _ rfl rfl _
  have eg7 : View.ld (Val := Elt F) (e' := .f32) (slab g t) r1_14 = gT g t (fin8 7) := ld_slab g t (fin8 7) _ rfl rfl _
  have ez7 : View.ld (Val := Elt F) (e' := .f32) p r1_15 = rowT p (fin8 7) := ld_rows p (fin8 7) _ rfl rfl _
  unfold out1_2
  rw [View.canon_unit_zero hz]
  rw [eg0, eg1, eg2, eg3, eg4, eg5, eg6, eg7, ez0, ez1, ez2, ez3, ez4, ez5, ez6, ez7]
  unfold k1_pay1 k1_pay2 k1_pay3
  simp only [shapeCast_self]
  rfl

end Cert.KernelIdeal.KV

end
-- ==== Proof.KArr1.lean ====
/-
  The kernel's side, fifth part: from blocks to the array in the second pipeline. g's block at a grid point is its row slab,
  the p array's block is the whole array, what a point writes back is a row tile of the common function's second layer, and
  the eight blocks cover the result array.
-/
import proofs.«161882_g2000703798406267_pallasbulk_306_14_alg».proof.Proof.KTile1

noncomputable section

namespace Cert.KernelIdeal.KV

open Idealize.ShloMosaic Idealize.ShloMosaic.ValueIdx
open Cert.KernelIdeal Cert.KernelIdeal.Gen
open Idealize.ShloMosaic.TcCoe
open Idealize.ShloMosaic.Pipeline (Dat)
open Cert.GcnSpec (gT rowT stack fin8)

variable {F : FTy → Type} [FloatOps F]

variable (V : (c : Dev nD) → (b : Ref sig .tc) → Buf (Elt F) ((c : Thread nD τ).loc b))

/-! ## The second pipeline's blocks -/

/-- A point of the eight-point grid as a tile number. -/
def tile1 (t : Fin cfg1.N) : Fin 8 := ⟨t.val, lt_of_lt_of_eq t.isLt N_1⟩

/-- The index maps, decided over the grid: g's window and the result window move down the rows with the point, and the
    window of the p array stays at block (0, 0). -/
theorem idx1 : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = t.val ∧ win1_2.index t (1 : Fin 2) = 0) :=
  (by decide +kernel : ∀ t : Fin grid1.N, _)

/-- g's block at point t is the row slab t. -/
theorem blk1_0 (X : Vec F S4096x4096 .f32) (t : Fin cfg1.N) :
    ((cfg1.win 0).blk t).view.read (Elt F) X = slab X (tile1 t) := by
  obtain ⟨⟨h0, h1⟩, -⟩ := idx1 t
  funext y
  show X (((cfg1.win 0).blk t).view.emb y) = X _
  refine congrArg X ?_
  funext a
  match a with
  | ⟨0, _⟩ =>
    refine Fin.ext ?_
    show win1_0.index t (0 : Fin 2) * 512 + 1 * (y 0).val = 512 * t.val + (y 0).val
    omega
  | ⟨1, _⟩ =>
    refine Fin.ext ?_
    show win1_0.index t (1 : Fin 2) * 4096 + 1 * (y 1).val = (y 1).val
    omega

/-- The block of the p array is the whole array. -/
theorem blk1_1 (X : Vec F S4096x128 .f32) (t : Fin cfg1.N) : ((cfg1.win 1).blk t).view.read (Elt F) X = X := by
  obtain ⟨-, ⟨h0, h1⟩, -⟩ := idx1 t
  funext y
  show X (((cfg1.win 1).blk t).view.emb y) = X y
  refine congrArg X ?_
  funext a
  match a with
  | ⟨0, _⟩ =>
    refine Fin.ext ?_
    show win1_1.index t (0 : Fin 2) * 4096 + 1 * (y 0).val = (y 0).val
    omega
  | ⟨1, _⟩ =>
    refine Fin.ext ?_
    show win1_1.index t (1 : Fin 2) * 128 + 1 * (y 1).val = (y 1).val
    omega

/-- Block t of the result array is its row tile t. -/
theorem blk1_2 (X : Vec F S4096x128 .f32) (t : Fin cfg1.N) :
    ((cfg1.win 2).blk t).view.read (Elt F) X = rowT X (tile1 t) := by
  obtain ⟨-, -, ⟨h0, h1⟩⟩ := idx1 t
  funext y
  show X (((cfg1.win 2).blk t).view.emb y) = X _
  refine congrArg X ?_
  funext a
  match a with
  | ⟨0, _⟩ =>
    refine Fin.ext ?_
    show win1_2.index t (0 : Fin 2) * 512 + 1 * (y 0).val = 512 * t.val + (y 0).val
    omega
  | ⟨1, _⟩ =>
    refine Fin.ext ?_
    show win1_2.index t (1 : Fin 2) * 128 + 1 * (y 1).val = (y 1).val
    omega

/-! ## What each point writes back, and the array the second pipeline leaves -/

/-- The result as the region-entry contents give it: the second layer over g and the row tiles of the p array found there. -/
abbrev resOf (c : Dev nD) : Vec F S4096x128 .f32 :=
  stack (Cert.GcnSpec.resT (V c main_arg0) (fun k => rowT (V c main_v0_1) k))

/-- Point t writes back row tile t of the result. -/
theorem flushed1_2 (c : Dev nD) (t : Fin cfg1.N) :
    (dat1 V c).flushed 2 t = ((cfg1.win 2).blk t).view.read (Elt F) (resOf V c) := by
  show (cfg1.win 2).cut (grid1.coords t) ((dat1 V c).after 2 t) = _
  rw [after1_2]
  have e0 : iblk1 V c 0 t = slab (V c main_arg0) (tile1 t) := blk1_0 (V c main_arg0) t
  have e1 : iblk1 V c 1 t = V c main_v0_1 := blk1_1 (V c main_v0_1) t
  rw [e0, e1, out1_2_eq]
  refine ((blk1_2 (resOf V c) t).trans ?_).symm
  exact Cert.GcnSpec.rowT_stack _ (tile1 t)

/-- An index of the result array is in point t's block iff each coordinate is in the block's range on its axis. -/
theorem mem_blk1_2 (t : Fin cfg1.N) (i : S4096x128.Idx) :
    i ∈ ((cfg1.win 2).blk t).view.set ↔ ∀ a : Fin 2, win1_2.index t a * S512x128.size a ≤ (i a).val ∧ (i a).val < win1_2.index t a * S512x128.size a + S512x128.size a := by
  show i ∈ ((View.whole main_v1).slice (win1_2.rect t)).set ↔ _
  rw [View.set_slice_whole, Rect.mem_set_unit]
  exact Iff.rfl

/-- Row r lies in the block of point r / 512: the eight blocks cover the array. -/
theorem covers1_2 (i : S4096x128.Idx) :
    ∃ t : Fin cfg1.N, (cfg1.win 2).flush t = true ∧ i ∈ ((cfg1.win 2).blk t).view.set := by
  have hi0 : (i 0).val < 4096 := idx2_lt0 i
  have hi1 : (i 1).val < 128 := idx2_lt1 i
  have hN : cfg1.N = 8 := N_1
  have ht : (i 0).val / 512 < cfg1.N := by rw [hN]; omega
  obtain ⟨-, -, ⟨h0, h1⟩⟩ := idx1 ⟨(i 0).val / 512, ht⟩
  refine ⟨⟨(i 0).val / 512, ht⟩, flush1_2 _, ?_⟩
  rw [mem_blk1_2]
  intro a
  match a with
  | ⟨0, _⟩ =>
    show win1_2.index ⟨(i 0).val / 512, ht⟩ (0 : Fin 2) * 512 ≤ (i 0).val ∧ (i 0).val < win1_2.index ⟨(i 0).val / 512, ht⟩ (0 : Fin 2) * 512 + 512
    rw [h0]
    show (i 0).val / 512 * 512 ≤ (i 0).val ∧ (i 0).val < (i 0).val / 512 * 512 + 512
    omega
  | ⟨1, _⟩ =>
    show win1_2.index ⟨(i 0).val / 512, ht⟩ (1 : Fin 2) * 128 ≤ (i 1).val ∧ (i 1).val < win1_2.index ⟨(i 0).val / 512, ht⟩ (1 : Fin 2) * 128 + 128
    rw [h1]
    omega

/-- The result array after the second pipeline. -/
theorem arr1_2 (c : Dev nD) : (dat1 V c).arrAt 2 cfg1.N = resOf V c :=
  (dat1 V c).arrAt_eq_of_cover 2 (resOf V c) (fun t _ => flushed1_2 V c t) covers1_2

/-- Once the entry contents are known — g as launched, the p array at its tiles — the result array is the common
    function's: row tile k of the stacked p array is p_k. -/
theorem resOf_eq (c : Dev nD) (g : Vec F S4096x4096 .f32) (P : Fin 8 → Vec F S512x128 .f32)
    (hg : V c main_arg0 = g) (hp : V c main_v0_1 = stack P) :
    resOf V c = stack (Cert.GcnSpec.resT g P) := by
  show stack (Cert.GcnSpec.resT (V c main_arg0) (fun k => rowT (V c main_v0_1) k)) = _
  rw [hg, hp]
  exact congrArg (fun Q => stack (Cert.GcnSpec.resT g Q)) (funext fun k => Cert.GcnSpec.rowT_stack P k)

end Cert.KernelIdeal.KV

end
-- ==== Proof.KRun.lean ====
/-
  The kernel's side, last part: the run of @main with its results. The two regions' boundary contents are a fold from the
  launch memory; read at the two result arrays, the fold gives what the pipelines leave there, which the earlier parts
  identify with the common function of the launch contents.
-/
import proofs.«161882_g2000703798406267_pallasbulk_306_14_alg».proof.Proof.KArr0
import proofs.«161882_g2000703798406267_pallasbulk_306_14_alg».proof.Proof.KArr1

set_option maxRecDepth 16384

noncomputable section

namespace Cert.KernelIdeal.KV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.GcnSpec (rowT stack)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The final contents of the two result arrays -/

/-- The second pipeline finds g as launched: the first pipeline only read it. -/
theorem V1_main_arg0 (c : Dev nD) : V1 m ρ c main_arg0 = m ((c : Thread nD τ).loc main_arg0) :=
  ((W1_arr m ρ c 0).trans (((dat0 (V0 m ρ) c).arrAt_in 0 rfl _).trans (A_eq0 (V0 m ρ) c 0))).trans rfl

/-- The second pipeline finds the p array at what the first left: the tiles p_i of the launch contents. -/
theorem V1_main_v0_1 (c : Dev nD) :
    V1 m ρ c main_v0_1 = stack (Cert.GcnSpec.pT (m ((c : Thread nD τ).loc main_arg0)) (m ((c : Thread nD τ).loc main_arg1))
      (Cert.GcnSpec.w1t (m ((c : Thread nD τ).loc main_arg2))) (Cert.GcnSpec.w2t (m ((c : Thread nD τ).loc main_arg3)))) :=
  ((W1_arr m ρ c 5).trans (arr0_5 (V0 m ρ) c)).trans rfl

/-- The first result array ends at the common function's result of the launch contents. -/
theorem W2_main_v1 (c : Dev nD) :
    W2 m ρ c (Proc.devRef .tc main_v1) = Cert.GcnSpec.res (m ((c : Thread nD τ).loc main_arg0)) (m ((c : Thread nD τ).loc main_arg1))
      (m ((c : Thread nD τ).loc main_arg2)) (m ((c : Thread nD τ).loc main_arg3)) :=
  ((W2_arr m ρ c 2).trans (arr1_2 (V1 m ρ) c)).trans
    (resOf_eq (V1 m ρ) c _ _ (V1_main_arg0 m ρ c) (V1_main_v0_1 m ρ c))

/-- The second result array, which the second pipeline does not touch, ends at the common function's hidden layer. -/
theorem W2_main_v0_0 (c : Dev nD) :
    W2 m ρ c (Proc.devRef .tc main_v0_0) = Cert.GcnSpec.z1 (m ((c : Thread nD τ).loc main_arg0)) (m ((c : Thread nD τ).loc main_arg1))
      (m ((c : Thread nD τ).loc main_arg2)) :=
  (W2_of_ne m ρ c main_v0_0 (by decide)).trans (((W1_arr m ρ c 4).trans (arr0_4 (V0 m ρ) c)).trans rfl)

/-! ## The run, with the results -/

-- the launch theorem's implicit arguments are found by unifying its conclusion with this one, which takes unfolding plain
-- definitions in a metavariable's type
set_option backward.isDefEq.respectTransparency.types false in
/-- From any memory with zero counters, every weakly fair execution of @main on the TensorCores terminates, nothing
    faulting, and every final state has the first result array at the common function's result of the launch contents,
    the second at its hidden layer, and the four argument arrays as launched: the launch over the two regions, whose last
    thread state holds every unscoped buffer at the last boundary's contents, read at the two result arrays as well as at
    the arguments. -/
theorem run : θ_run (defs (F := F)) (onTc (τ := τ) (main (F := F))) ⟨m, fun _ => 0, ρ⟩ (fun r => ∀ c : Dev nD,
      r.2.mem ((c.tc : Thread nD τ).loc main_v1) = Cert.GcnSpec.res (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v0_0) = Cert.GcnSpec.z1 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_main_v1 m ρ c),
       (h c _ (mem_uc main_v0_0 (by decide))).trans (W2_main_v0_0 m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

end Cert.KernelIdeal.KV

end
-- ==== Proof.R0Conds.lean ====
/-
  The first layer's tiled kernel (grid 8 × 8: row tile i, reduction step k; point t = 8·i + k), case by case.
  The body has two conditionals on k: at k = 0 it zeroes the accumulator (a scratch buffer carried from point to
  point), at k = 7 it stores max(accumulator, 0) into the output tile. So a point is in one of three cases:
  k = 0 (zero, then add), 0 < k < 7 (add), k = 7 (add, then store the output).
-/
import proofs.«161882_g2000703798406267_pallasbulk_306_14_alg».proof.Proof.Gen.ReferenceIdeal.Launch
import proofs.«161882_g2000703798406267_pallasbulk_306_14_alg».proof.Proof.Gen.ReferenceIdeal.Skeleton
import proofs.«161882_g2000703798406267_pallasbulk_306_14_alg».proof.Proof.Gen.ReferenceIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

/-! ## The two conditions, in closed form over the grid -/

/-- "k = 0", as the body computes it from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "k = 7". -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the output window is idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from k = 7 the body stores nothing into the output tile, and the tile is not written back there. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the body is called with -/

abbrev VO0_3 : View sig .tc .vmem S512x256 .f32 := (Memref.whole cc0_stg3_0 : Memref sig .tc .vmem S512x256 .f32).view
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x256 .f32 := win0_3.stage (cfg0.slots t 3)
abbrev hs0_3 (t : Fin cfg0.N) : (ms0_3 t).IsWhole := hstage0_3 ((cfg0.slots t 3).cast nbuf0_3)
/-- The accumulator. -/
abbrev scM0 : Memref sig .tc .vmem S512x256 .f32 := Memref.whole cc0_scratch0
abbrev VS0 : View sig .tc .vmem S512x256 .f32 := scM0.view

/-- The other scoped buffers of the core (the second layer's), each whole at some contents: they ride along untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- What the region's invariant holds between points when nothing is said of the accumulator: the accumulator at some
    contents, the other scoped buffers, the generator register at some state. -/
theorem PhiA0_eq (c : Dev nD) :
    (Pipeline.ΦA spec0 c : sProp 𝕄)
      = iprop(iprop((∃ d, owns (c : Thread nD τ) scM0 fullShare d) ∗ others0 (F := F) c) ∗ (∃ r, prngReg c r)) := by
  unfold Pipeline.ΦA; rw [scopedRest0_eq]; unfold others0; simp only [scM0, owns_whole]; try rfl

end Cert.ReferenceIdeal.Hand

end
-- ==== Proof.R0RunsAB.lean ====
/-
  The first layer's kernel body run symbolically in the two cases that leave the output tile alone (k = 0 and
  0 < k < 7): what each leaves in the accumulator, as the list of the stores it made (last first).
-/
import proofs.«161882_g2000703798406267_pallasbulk_306_14_alg».proof.Proof.R0Conds

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

set_option maxHeartbeats 1000000 in
/-- k = 0: the accumulator (at anything) is zeroed, then the point's term is added; the output tile's buffer is handed back as found. -/
noncomputable def kernelRun0_A (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S128x256 .f32) (harg4 : arg4.IsWhole) (arg5 : Memref sig .tc .vmem S512x256 .f32) (harg5 : arg5.IsWhole) (arg6 : Memref sig .tc .vmem S512x256 .f32) (harg6 : arg6.IsWhole) (hc0 : cond0_0 i) (hc1 : ¬cond0_1 i)
    (x0 : Vec F S512x512 .f32) (x1 : Vec F S512x128 .f32) (x2 : Vec F S128x256 .f32) :
    { LS : List (View.Piece (Elt F) S512x256 .f32) //
      ∀ (xi : Vec F S512x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__graph_conv_tiled_kernel i arg2 harg2 arg3 harg3 arg4 harg4 arg5 harg5 arg6 harg6) K } := by
  refine ⟨?_, fun xi E K => ?run⟩
  case run =>
    simp only [cc0__graph_conv_tiled_kernel_eq_skeleton]; unfold cc0__graph_conv_tiled_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- 0 < k < 7: the point's term is added to the accumulator as the point before left it; the output tile's buffer is handed back as found. -/
noncomputable def kernelRun0_B (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S128x256 .f32) (harg4 : arg4.IsWhole) (arg5 : Memref sig .tc .vmem S512x256 .f32) (harg5 : arg5.IsWhole) (arg6 : Memref sig .tc .vmem S512x256 .f32) (harg6 : arg6.IsWhole) (hc0 : ¬cond0_0 i) (hc1 : ¬cond0_1 i)
    (x0 : Vec F S512x512 .f32) (x1 : Vec F S512x128 .f32) (x2 : Vec F S128x256 .f32) (xs : Vec F S512x256 .f32) :
    { LS : List (View.Piece (Elt F) S512x256 .f32) //
      ∀ (xi : Vec F S512x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__graph_conv_tiled_kernel i arg2 harg2 arg3 harg3 arg4 harg4 arg5 harg5 arg6 harg6) K } := by
  refine ⟨?_, fun xi E K => ?run⟩
  case run =>
    simp only [cc0__graph_conv_tiled_kernel_eq_skeleton]; unfold cc0__graph_conv_tiled_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.ReferenceIdeal.Hand

end
-- ==== Proof.R0RunsC.lean ====
/-
  The first layer's kernel body run symbolically at k = 7: what it leaves in the output tile's buffer and in the
  accumulator, as the lists of the stores it made (last first).
-/
import proofs.«161882_g2000703798406267_pallasbulk_306_14_alg».proof.Proof.R0Conds

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

set_option maxHeartbeats 1000000 in
/-- k = 7: the point's term is added to the accumulator, and max(accumulator, 0) is stored into the output tile's buffer. -/
noncomputable def kernelRun0_C (c : Dev nD) (i : grid0.Coords) (arg2 : Memref sig .tc .vmem S512x512 .f32) (harg2 : arg2.IsWhole) (arg3 : Memref sig .tc .vmem S512x128 .f32) (harg3 : arg3.IsWhole) (arg4 : Memref sig .tc .vmem S128x256 .f32) (harg4 : arg4.IsWhole) (arg5 : Memref sig .tc .vmem S512x256 .f32) (harg5 : arg5.IsWhole) (arg6 : Memref sig .tc .vmem S512x256 .f32) (harg6 : arg6.IsWhole) (hc0 : ¬cond0_0 i) (hc1 : cond0_1 i)
    (x0 : Vec F S512x512 .f32) (x1 : Vec F S512x128 .f32) (x2 : Vec F S128x256 .f32) (xs : Vec F S512x256 .f32) :
    Σ' (L3 : List (View.Piece (Elt F) S512x256 .f32)), { LS : List (View.Piece (Elt F) S512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__graph_conv_tiled_kernel i arg2 harg2 arg3 harg3 arg4 harg4 arg5 harg5 arg6 harg6) K } := by
  refine ⟨?_, ?_, fun E K => ?run⟩
  case run =>
    simp only [cc0__graph_conv_tiled_kernel_eq_skeleton]; unfold cc0__graph_conv_tiled_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.ReferenceIdeal.Hand

end
-- ==== Proof.R0Data.lean ====
/-
  The first layer's region, point by point. The accumulator after point t = 8·i + k holds the first k + 1 terms of
  row tile i's sum added to zero (it is reset at k = 0); the output tile's buffer holds max(accumulator, 0) after
  k = 7 and is otherwise left as found. This module states those contents by recursion on the point, over the blocks of
  the arrays as the region finds them (a parameter V), and proves the kernel body leaves them.
-/
import proofs.«161882_g2000703798406267_pallasbulk_306_14_alg».proof.Proof.R0RunsAB
import proofs.«161882_g2000703798406267_pallasbulk_306_14_alg».proof.Proof.R0RunsC

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## Each case at a point -/

/-- The run of case k = 0 at point t, on the point's memrefs and input blocks. -/
abbrev runA (c : Dev nD) (t : Fin cfg0.N) (h0 : t.val % 8 = 0) (h1 : ¬t.val % 8 = 7) :=
  kernelRun0_A (F := F) c (grid0.coords t) (ms0_0 t) (hs0_0 t) (ms0_1 t) (hs0_1 t) (ms0_2 t) (hs0_2 t) (ms0_3 t) (hs0_3 t) scM0 (Memref.isWhole_whole _)
    ((hcond0_0 t).mpr h0) (fun h => h1 ((hcond0_1 t).mp h)) (iblk0 V c 0 t) (iblk0 V c 1 t) (iblk0 V c 2 t)
/-- The run of case 0 < k < 7 at point t, over what the point before left in the accumulator. -/
abbrev runB (c : Dev nD) (t : Fin cfg0.N) (h0 : ¬t.val % 8 = 0) (h1 : ¬t.val % 8 = 7) (xs : Vec F S512x256 .f32) :=
  kernelRun0_B (F := F) c (grid0.coords t) (ms0_0 t) (hs0_0 t) (ms0_1 t) (hs0_1 t) (ms0_2 t) (hs0_2 t) (ms0_3 t) (hs0_3 t) scM0 (Memref.isWhole_whole _)
    (fun h => h0 ((hcond0_0 t).mp h)) (fun h => h1 ((hcond0_1 t).mp h)) (iblk0 V c 0 t) (iblk0 V c 1 t) (iblk0 V c 2 t) xs
/-- The run of case k = 7 at point t, over what the point before left in the accumulator. -/
abbrev runC (c : Dev nD) (t : Fin cfg0.N) (h0 : ¬t.val % 8 = 0) (h1 : t.val % 8 = 7) (xs : Vec F S512x256 .f32) :=
  kernelRun0_C (F := F) c (grid0.coords t) (ms0_0 t) (hs0_0 t) (ms0_1 t) (hs0_1 t) (ms0_2 t) (hs0_2 t) (ms0_3 t) (hs0_3 t) scM0 (Memref.isWhole_whole _)
    (fun h => h0 ((hcond0_0 t).mp h)) ((hcond0_1 t).mpr h1) (iblk0 V c 0 t) (iblk0 V c 1 t) (iblk0 V c 2 t) xs

/-- The stores each case makes into the accumulator cover it (each is one whole-buffer store, or two). -/
theorem scoverA (c : Dev nD) (t : Fin cfg0.N) (h0 : t.val % 8 = 0) (h1 : ¬t.val % 8 = 7) (y : S512x256.Idx) :
    ∃ pc ∈ (runA V c t h0 h1).1, y ∈ pc.1.set :=
  View.cover_of_tiledL (runA V c t h0 h1).1 S512x256.size (by sl_kernel_rfl) y
theorem scoverB (c : Dev nD) (t : Fin cfg0.N) (h0 : ¬t.val % 8 = 0) (h1 : ¬t.val % 8 = 7) (xs : Vec F S512x256 .f32) (y : S512x256.Idx) :
    ∃ pc ∈ (runB V c t h0 h1 xs).1, y ∈ pc.1.set :=
  View.cover_of_tiledL (runB V c t h0 h1 xs).1 S512x256.size (by sl_kernel_rfl) y
theorem scoverC (c : Dev nD) (t : Fin cfg0.N) (h0 : ¬t.val % 8 = 0) (h1 : t.val % 8 = 7) (xs : Vec F S512x256 .f32) (y : S512x256.Idx) :
    ∃ pc ∈ (runC V c t h0 h1 xs).2.1, y ∈ pc.1.set :=
  View.cover_of_tiledL (runC V c t h0 h1 xs).2.1 S512x256.size (by sl_kernel_rfl) y
/-- At k = 7 the one store into the output tile's buffer covers it. -/
theorem ocoverC (c : Dev nD) (t : Fin cfg0.N) (h0 : ¬t.val % 8 = 0) (h1 : t.val % 8 = 7) (xs : Vec F S512x256 .f32) (y : S512x256.Idx) :
    ∃ pc ∈ (runC V c t h0 h1 xs).1, y ∈ pc.1.set :=
  View.cover_of_tiledL (runC V c t h0 h1 xs).1 S512x256.size (by sl_kernel_rfl) y

/-- What each case leaves in the accumulator: its stores read back. -/
def saccA (c : Dev nD) (t : Fin cfg0.N) (h0 : t.val % 8 = 0) (h1 : ¬t.val % 8 = 7) : Vec F S512x256 .f32 :=
  VS0.read (Elt F) (VS0.writes (Elt F) VS0.junk (runA V c t h0 h1).1)
def saccB (c : Dev nD) (t : Fin cfg0.N) (h0 : ¬t.val % 8 = 0) (h1 : ¬t.val % 8 = 7) (xs : Vec F S512x256 .f32) : Vec F S512x256 .f32 :=
  VS0.read (Elt F) (VS0.writes (Elt F) VS0.junk (runB V c t h0 h1 xs).1)
def saccC (c : Dev nD) (t : Fin cfg0.N) (h0 : ¬t.val % 8 = 0) (h1 : t.val % 8 = 7) (xs : Vec F S512x256 .f32) : Vec F S512x256 .f32 :=
  VS0.read (Elt F) (VS0.writes (Elt F) VS0.junk (runC V c t h0 h1 xs).2.1)
/-- What case k = 7 leaves in the output tile's buffer. -/
def outC (c : Dev nD) (t : Fin cfg0.N) (h0 : ¬t.val % 8 = 0) (h1 : t.val % 8 = 7) (xs : Vec F S512x256 .f32) : Vec F S512x256 .f32 :=
  VO0_3.read (Elt F) (VO0_3.writes (Elt F) VO0_3.junk (runC V c t h0 h1 xs).1)

/-! ## The accumulator and the output tile after each point -/

/-- After point n: (the output tile's buffer where the point stores it — elsewhere a placeholder nothing reads —,
    the accumulator). -/
def outsAt0 (c : Dev nD) : (n : ℕ) → n < cfg0.N → Vec F S512x256 .f32 × Vec F S512x256 .f32
  | 0, hn => (VO0_3.junk, saccA V c ⟨0, hn⟩ (Nat.zero_mod _) (by show ¬ 0 % 8 = 7; decide))
  | n + 1, hn =>
    if h0 : (n + 1) % 8 = 0 then
      (VO0_3.junk, saccA V c ⟨n + 1, hn⟩ h0 (by show ¬ (n + 1) % 8 = 7; omega))
    else
      if h1 : (n + 1) % 8 = 7 then
        (outC V c ⟨n + 1, hn⟩ h0 h1 (outsAt0 c n (Nat.lt_of_succ_lt hn)).2, saccC V c ⟨n + 1, hn⟩ h0 h1 (outsAt0 c n (Nat.lt_of_succ_lt hn)).2)
      else
        (VO0_3.junk, saccB V c ⟨n + 1, hn⟩ h0 h1 (outsAt0 c n (Nat.lt_of_succ_lt hn)).2)

theorem outsAt0_A (c : Dev nD) (t : Fin cfg0.N) (h0 : t.val % 8 = 0) (h1 : ¬t.val % 8 = 7) :
    outsAt0 V c t.val t.isLt = (VO0_3.junk, saccA V c t h0 h1) := by
  obtain ⟨n, hn⟩ := t
  cases n with
  | zero => rfl
  | succ n => exact (dif_pos h0).trans rfl

theorem outsAt0_B (c : Dev nD) (t : Fin cfg0.N) (h0 : ¬t.val % 8 = 0) (h1 : ¬t.val % 8 = 7) :
    outsAt0 V c t.val t.isLt = (VO0_3.junk, saccB V c t h0 h1 (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (outC V c t h0 h1 (outsAt0 V c (t.val - 1) (Nat.lt_of_le_of_lt (Nat.sub_le _ _) t.isLt)).2, saccC V c t h0 h1 (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The region's invariant: the accumulator at what the point before left -/

def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ others0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare ((outsAt0 V c n hn).2) ∗ others0 (F := F) c) ∗ (∃ r, prngReg c r)) := rfl

theorem PhiS_pos (c : Dev nD) (n : ℕ) (h : n ≤ cfg0.N) (hz : n ≠ 0) :
    PhiS V c n h = iprop(iprop(owns (c : Thread nD τ) scM0 fullShare ((outsAt0 V c (n - 1) (by omega)).2) ∗ others0 (F := F) c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.ReferenceIdeal.Hand

end
-- ==== Proof.R0Body.lean ====
/-
  The first layer's region: the kernel body, at every point, takes the accumulator from what the point before left to
  what this point leaves (the case the point is in decides which), the input blocks unchanged, the output tile's buffer
  stored at k = 7 and handed back as found elsewhere.
-/
import proofs.«161882_g2000703798406267_pallasbulk_306_14_alg».proof.Proof.R0Data

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  by_cases h0 : t.val % 8 = 0
  · have h1 : ¬t.val % 8 = 7 := by omega
    rw [Dat.leavesExact_idle (dat0 V c) 3 t (idleAt0_3 t (fun h => h1 ((hcond0_1 t).mp h))) (noFlush0_3 t (fun h => h1 ((hcond0_1 t).mp h)))]
    rw [outsAt0_A V c t h0 h1]
    unfold saccA; (try dsimp only)
    by_cases hz : t.val = 0
    · rw [PhiS_castSucc V c t, PhiS_zero V c _ _ hz, PhiA0_eq]
      iintro ⟨⟨⟨HS, Hoth⟩, Hg⟩, Ho, ⟨%d0, H0⟩, ⟨%d1, H1⟩, ⟨%d2, H2⟩, ⟨%d3, H3⟩⟩
      · iapply ((runA V c t h0 h1).2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hoth Hg]
        · isplitl [HS Hoth]
          · isplitl [HS]
            · unfold owns; iexists _; isplitr
              swap; · iexact HS
              ipureintro; exact View.read_writes_of_cover _ _ _ _ _ (scoverA V c t h0 h1)
            iexact Hoth
          iexact Hg
        isplitl [Ho]; · iexact Ho
        isplitl [H0]; · iexact H0
        isplitl [H1]; · iexact H1
        isplitl [H2]; · iexact H2
        iexists _; iexact H3
    · rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      · iapply ((runA V c t h0 h1).2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hoth Hg]
        · isplitl [HS Hoth]
          · isplitl [HS]
            · unfold owns; iexists _; isplitr
              swap; · iexact HS
              ipureintro; exact View.read_writes_of_cover _ _ _ _ _ (scoverA V c t h0 h1)
            iexact Hoth
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 8 = 7
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold outC saccC; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runC V c t h0 h1 _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS Hoth]
        · isplitl [HS]
          · unfold owns; iexists _; isplitr
            swap; · iexact HS
            ipureintro; exact View.read_writes_of_cover _ _ _ _ _ (scoverC V c t h0 h1 _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (ocoverC V c t h0 h1 _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold saccB; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      · iapply ((runB V c t h0 h1 _).2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hoth Hg]
        · isplitl [HS Hoth]
          · isplitl [HS]
            · unfold owns; iexists _; isplitr
              swap; · iexact HS
              ipureintro; exact View.read_writes_of_cover _ _ _ _ _ (scoverB V c t h0 h1 _)
            iexact Hoth
          iexact Hg
        isplitl [Ho]; · iexact Ho
        isplitl [H0]; · iexact H0
        isplitl [H1]; · iexact H1
        isplitl [H2]; · iexact H2
        iexists _; iexact H3

/-- The body's obligation to the pipeline, at every grid point. -/
theorem body_obligation0 (c : Dev nD) : BodyObligation (dat0 (F := F) V c) (defs₀ (F := F)) Variants.none () Set.univ := fun t => by
  rw [bigSep_W0, bigSep_W0]
  exact sound_body V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the accumulator back at some contents. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA0_eq]
  iintro ⟨⟨HS, Hoth⟩, Hg⟩
  isplitl [HS Hoth]
  · isplitl [HS]
    · iexists _; iexact HS
    iexact Hoth
  iexact Hg

end Cert.ReferenceIdeal.Hand

end
-- ==== Proof.R1Conds.lean ====
/-
  The second layer's tiled kernel (grid 8 × 8: row tile i, reduction step k; point t = 8·i + k), case by case.
  The body has two conditionals on k: at k = 0 it zeroes the accumulator (a scratch buffer carried from point to
  point), at k = 7 it stores logistic(accumulator) into the output tile. So a point is in one of three cases:
  k = 0 (zero, then add), 0 < k < 7 (add), k = 7 (add, then store the output).
-/
import proofs.«161882_g2000703798406267_pallasbulk_306_14_alg».proof.Proof.Gen.ReferenceIdeal.Launch
import proofs.«161882_g2000703798406267_pallasbulk_306_14_alg».proof.Proof.Gen.ReferenceIdeal.Skeleton
import proofs.«161882_g2000703798406267_pallasbulk_306_14_alg».proof.Proof.Gen.ReferenceIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.ReferenceIdeal.Hand1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

/-! ## The two conditions, in closed form over the grid -/

/-- "k = 0", as the body computes it from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "k = 7". -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from k = 7 the body stores nothing into the output tile, and the tile is not written back there. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev VO1_3 : View sig .tc .vmem S512x128 .f32 := (Memref.whole cc1_stg3_0 : Memref sig .tc .vmem S512x128 .f32).view
abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x128 .f32 := win1_3.stage (cfg1.slots t 3)
abbrev hs1_3 (t : Fin cfg1.N) : (ms1_3 t).IsWhole := hstage1_3 ((cfg1.slots t 3).cast nbuf1_3)
/-- The accumulator. -/
abbrev scM1 : Memref sig .tc .vmem S512x128 .f32 := Memref.whole cc1_scratch0
abbrev VS1 : View sig .tc .vmem S512x128 .f32 := scM1.view

/-- The region's invariant between points, with the accumulator at `S`: the other scoped buffers of the core (the first
    layer's), each whole at some contents, ride along untouched, and so does the generator register. -/
def PhiWith (c : Dev nD) (S : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ S) ∗ (∃ r, prngReg c r))

/-- Everything of it but the accumulator. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ r, prngReg c r))

theorem PhiWith_split (c : Dev nD) (S : sProp 𝕄) : PhiWith (F := F) c S ⊢ iprop(S ∗ rest1 (F := F) c) := by
  unfold PhiWith rest1
  iintro ⟨⟨A1, A2, A3, A4, A5, A6, A7, A8, HS⟩, Hg⟩
  isplitl [HS]; · iexact HS
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  iexact Hg

theorem PhiWith_join (c : Dev nD) (S : sProp 𝕄) : iprop(S ∗ rest1 (F := F) c) ⊢ PhiWith (F := F) c S := by
  unfold PhiWith rest1
  iintro ⟨HS, A1, A2, A3, A4, A5, A6, A7, A8, Hg⟩
  isplitr [Hg]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact HS
  iexact Hg

/-- What the region's invariant holds when nothing is said of the accumulator. -/
theorem PhiA1_eq (c : Dev nD) :
    (Pipeline.ΦA spec1 c : sProp 𝕄) = PhiWith (F := F) c iprop(∃ d, owns (c : Thread nD τ) scM1 fullShare d) := by
  unfold Pipeline.ΦA PhiWith; rw [scopedRest1_eq]; simp only [scM1, owns_whole]; try rfl

end Cert.ReferenceIdeal.Hand1

end
-- ==== Proof.R1RunsAB.lean ====
/-
  The second layer's kernel body run symbolically in the two cases that leave the output tile alone (k = 0 and
  0 < k < 7): what each leaves in the accumulator, as the list of the stores it made (last first).
-/
import proofs.«161882_g2000703798406267_pallasbulk_306_14_alg».proof.Proof.R1Conds

set_option maxRecDepth 16384

noncomputable section

namespace Cert.ReferenceIdeal.Hand1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

set_option maxHeartbeats 1000000 in
/-- k = 0: the accumulator (at anything) is zeroed, then the point's term is added; the output tile's buffer is handed back as found. -/
noncomputable def kernelRun1_A (c : Dev nD) (i : grid1.Coords) (arg2 : Memref sig .tc .vmem S512x512 .f32) (harg2 : arg2.IsWhole) (arg3 : Memref sig .tc .vmem S512x256 .f32) (harg3 : arg3.IsWhole) (arg4 : Memref sig .tc .vmem S256x128 .f32) (harg4 : arg4.IsWhole) (arg5 : Memref sig .tc .vmem S512x128 .f32) (harg5 : arg5.IsWhole) (arg6 : Memref sig .tc .vmem S512x128 .f32) (harg6 : arg6.IsWhole) (hc0 : cond1_0 i) (hc1 : ¬cond1_1 i)
    (x0 : Vec F S512x512 .f32) (x1 : Vec F S512x256 .f32) (x2 : Vec F S256x128 .f32) :
    { LS : List (View.Piece (Elt F) S512x128 .f32) //
      ∀ (xi : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc1__graph_conv_tiled_kernel i arg2 harg2 arg3 harg3 arg4 harg4 arg5 harg5 arg6 harg6) K } := by
  refine ⟨?_, fun xi E K => ?run⟩
  case run =>
    simp only [cc1__graph_conv_tiled_kernel_eq_skeleton]; unfold cc1__graph_conv_tiled_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- 0 < k < 7: the point's term is added to the accumulator as the point before left it; the output tile's buffer is handed back as found. -/
noncomputable def kernelRun1_B (c : Dev nD) (i : grid1.Coords) (arg2 : Memref sig .tc .vmem S512x512 .f32) (harg2 : arg2.IsWhole) (arg3 : Memref sig .tc .vmem S512x256 .f32) (harg3 : arg3.IsWhole) (arg4 : Memref sig .tc .vmem S256x128 .f32) (harg4 : arg4.IsWhole) (arg5 : Memref sig .tc .vmem S512x128 .f32) (harg5 : arg5.IsWhole) (arg6 : Memref sig .tc .vmem S512x128 .f32) (harg6 : arg6.IsWhole) (hc0 : ¬cond1_0 i) (hc1 : ¬cond1_1 i)
    (x0 : Vec F S512x512 .f32) (x1 : Vec F S512x256 .f32) (x2 : Vec F S256x128 .f32) (xs : Vec F S512x128 .f32) :
    { LS : List (View.Piece (Elt F) S512x128 .f32) //
      ∀ (xi : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc1__graph_conv_tiled_kernel i arg2 harg2 arg3 harg3 arg4 harg4 arg5 harg5 arg6 harg6) K } := by
  refine ⟨?_, fun xi E K => ?run⟩
  case run =>
    simp only [cc1__graph_conv_tiled_kernel_eq_skeleton]; unfold cc1__graph_conv_tiled_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.ReferenceIdeal.Hand1

end
-- ==== Proof.R1RunsC.lean ====
/-
  The second layer's kernel body run symbolically at k = 7: what it leaves in the output tile's buffer and in the
  accumulator, as the lists of the stores it made (last first).
-/
import proofs.«161882_g2000703798406267_pallasbulk_306_14_alg».proof.Proof.R1Conds

set_option maxRecDepth 16384

noncomputable section

namespace Cert.ReferenceIdeal.Hand1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

set_option maxHeartbeats 1000000 in
/-- k = 7: the point's term is added to the accumulator, and logistic(accumulator) is stored into the output tile's buffer. -/
noncomputable def kernelRun1_C (c : Dev nD) (i : grid1.Coords) (arg2 : Memref sig .tc .vmem S512x512 .f32) (harg2 : arg2.IsWhole) (arg3 : Memref sig .tc .vmem S512x256 .f32) (harg3 : arg3.IsWhole) (arg4 : Memref sig .tc .vmem S256x128 .f32) (harg4 : arg4.IsWhole) (arg5 : Memref sig .tc .vmem S512x128 .f32) (harg5 : arg5.IsWhole) (arg6 : Memref sig .tc .vmem S512x128 .f32) (harg6 : arg6.IsWhole) (hc0 : ¬cond1_0 i) (hc1 : cond1_1 i)
    (x0 : Vec F S512x512 .f32) (x1 : Vec F S512x256 .f32) (x2 : Vec F S256x128 .f32) (xs : Vec F S512x128 .f32) :
    Σ' (L3 : List (View.Piece (Elt F) S512x128 .f32)), { LS : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc1__graph_conv_tiled_kernel i arg2 harg2 arg3 harg3 arg4 harg4 arg5 harg5 arg6 harg6) K } := by
  refine ⟨?_, ?_, fun E K => ?run⟩
  case run =>
    simp only [cc1__graph_conv_tiled_kernel_eq_skeleton]; unfold cc1__graph_conv_tiled_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.ReferenceIdeal.Hand1

end
-- ==== Proof.R1Data.lean ====
/-
  The second layer's region, point by point. The accumulator after point t = 8·i + k holds the first k + 1 terms of
  row tile i's sum added to zero (it is reset at k = 0); the output tile's buffer holds logistic(accumulator) after
  k = 7 and is otherwise left as found. This module states those contents by recursion on the point, over the blocks of
  the arrays as the region finds them (a parameter V), and proves the kernel body leaves them.
-/
import proofs.«161882_g2000703798406267_pallasbulk_306_14_alg».proof.Proof.R1RunsAB
import proofs.«161882_g2000703798406267_pallasbulk_306_14_alg».proof.Proof.R1RunsC

set_option maxRecDepth 16384

noncomputable section

namespace Cert.ReferenceIdeal.Hand1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## Each case at a point -/

/-- The run of case k = 0 at point t, on the point's memrefs and input blocks. -/
abbrev runA (c : Dev nD) (t : Fin cfg1.N) (h0 : t.val % 8 = 0) (h1 : ¬t.val % 8 = 7) :=
  kernelRun1_A (F := F) c (grid1.coords t) (ms1_0 t) (hs1_0 t) (ms1_1 t) (hs1_1 t) (ms1_2 t) (hs1_2 t) (ms1_3 t) (hs1_3 t) scM1 (Memref.isWhole_whole _)
    ((hcond1_0 t).mpr h0) (fun h => h1 ((hcond1_1 t).mp h)) (iblk1 V c 0 t) (iblk1 V c 1 t) (iblk1 V c 2 t)
/-- The run of case 0 < k < 7 at point t, over what the point before left in the accumulator. -/
abbrev runB (c : Dev nD) (t : Fin cfg1.N) (h0 : ¬t.val % 8 = 0) (h1 : ¬t.val % 8 = 7) (xs : Vec F S512x128 .f32) :=
  kernelRun1_B (F := F) c (grid1.coords t) (ms1_0 t) (hs1_0 t) (ms1_1 t) (hs1_1 t) (ms1_2 t) (hs1_2 t) (ms1_3 t) (hs1_3 t) scM1 (Memref.isWhole_whole _)
    (fun h => h0 ((hcond1_0 t).mp h)) (fun h => h1 ((hcond1_1 t).mp h)) (iblk1 V c 0 t) (iblk1 V c 1 t) (iblk1 V c 2 t) xs
/-- The run of case k = 7 at point t, over what the point before left in the accumulator. -/
abbrev runC (c : Dev nD) (t : Fin cfg1.N) (h0 : ¬t.val % 8 = 0) (h1 : t.val % 8 = 7) (xs : Vec F S512x128 .f32) :=
  kernelRun1_C (F := F) c (grid1.coords t) (ms1_0 t) (hs1_0 t) (ms1_1 t) (hs1_1 t) (ms1_2 t) (hs1_2 t) (ms1_3 t) (hs1_3 t) scM1 (Memref.isWhole_whole _)
    (fun h => h0 ((hcond1_0 t).mp h)) ((hcond1_1 t).mpr h1) (iblk1 V c 0 t) (iblk1 V c 1 t) (iblk1 V c 2 t) xs

/-- The stores each case makes into the accumulator cover it (each is one whole-buffer store, or two). -/
theorem scoverA (c : Dev nD) (t : Fin cfg1.N) (h0 : t.val % 8 = 0) (h1 : ¬t.val % 8 = 7) (y : S512x128.Idx) :
    ∃ pc ∈ (runA V c t h0 h1).1, y ∈ pc.1.set :=
  View.cover_of_tiledL (runA V c t h0 h1).1 S512x128.size (by sl_kernel_rfl) y
theorem scoverB (c : Dev nD) (t : Fin cfg1.N) (h0 : ¬t.val % 8 = 0) (h1 : ¬t.val % 8 = 7) (xs : Vec F S512x128 .f32) (y : S512x128.Idx) :
    ∃ pc ∈ (runB V c t h0 h1 xs).1, y ∈ pc.1.set :=
  View.cover_of_tiledL (runB V c t h0 h1 xs).1 S512x128.size (by sl_kernel_rfl) y
theorem scoverC (c : Dev nD) (t : Fin cfg1.N) (h0 : ¬t.val % 8 = 0) (h1 : t.val % 8 = 7) (xs : Vec F S512x128 .f32) (y : S512x128.Idx) :
    ∃ pc ∈ (runC V c t h0 h1 xs).2.1, y ∈ pc.1.set :=
  View.cover_of_tiledL (runC V c t h0 h1 xs).2.1 S512x128.size (by sl_kernel_rfl) y
/-- At k = 7 the one store into the output tile's buffer covers it. -/
theorem ocoverC (c : Dev nD) (t : Fin cfg1.N) (h0 : ¬t.val % 8 = 0) (h1 : t.val % 8 = 7) (xs : Vec F S512x128 .f32) (y : S512x128.Idx) :
    ∃ pc ∈ (runC V c t h0 h1 xs).1, y ∈ pc.1.set :=
  View.cover_of_tiledL (runC V c t h0 h1 xs).1 S512x128.size (by sl_kernel_rfl) y

/-- What each case leaves in the accumulator: its stores read back. -/
def saccA (c : Dev nD) (t : Fin cfg1.N) (h0 : t.val % 8 = 0) (h1 : ¬t.val % 8 = 7) : Vec F S512x128 .f32 :=
  VS1.read (Elt F) (VS1.writes (Elt F) VS1.junk (runA V c t h0 h1).1)
def saccB (c : Dev nD) (t : Fin cfg1.N) (h0 : ¬t.val % 8 = 0) (h1 : ¬t.val % 8 = 7) (xs : Vec F S512x128 .f32) : Vec F S512x128 .f32 :=
  VS1.read (Elt F) (VS1.writes (Elt F) VS1.junk (runB V c t h0 h1 xs).1)
def saccC (c : Dev nD) (t : Fin cfg1.N) (h0 : ¬t.val % 8 = 0) (h1 : t.val % 8 = 7) (xs : Vec F S512x128 .f32) : Vec F S512x128 .f32 :=
  VS1.read (Elt F) (VS1.writes (Elt F) VS1.junk (runC V c t h0 h1 xs).2.1)
/-- What case k = 7 leaves in the output tile's buffer. -/
def outC (c : Dev nD) (t : Fin cfg1.N) (h0 : ¬t.val % 8 = 0) (h1 : t.val % 8 = 7) (xs : Vec F S512x128 .f32) : Vec F S512x128 .f32 :=
  VO1_3.read (Elt F) (VO1_3.writes (Elt F) VO1_3.junk (runC V c t h0 h1 xs).1)

/-! ## The accumulator and the output tile after each point -/

/-- After point n: (the output tile's buffer where the point stores it — elsewhere a placeholder nothing reads —,
    the accumulator). -/
def outsAt1 (c : Dev nD) : (n : ℕ) → n < cfg1.N → Vec F S512x128 .f32 × Vec F S512x128 .f32
  | 0, hn => (VO1_3.junk, saccA V c ⟨0, hn⟩ (Nat.zero_mod _) (by show ¬ 0 % 8 = 7; decide))
  | n + 1, hn =>
    if h0 : (n + 1) % 8 = 0 then
      (VO1_3.junk, saccA V c ⟨n + 1, hn⟩ h0 (by show ¬ (n + 1) % 8 = 7; omega))
    else
      if h1 : (n + 1) % 8 = 7 then
        (outC V c ⟨n + 1, hn⟩ h0 h1 (outsAt1 c n (Nat.lt_of_succ_lt hn)).2, saccC V c ⟨n + 1, hn⟩ h0 h1 (outsAt1 c n (Nat.lt_of_succ_lt hn)).2)
      else
        (VO1_3.junk, saccB V c ⟨n + 1, hn⟩ h0 h1 (outsAt1 c n (Nat.lt_of_succ_lt hn)).2)

theorem outsAt1_A (c : Dev nD) (t : Fin cfg1.N) (h0 : t.val % 8 = 0) (h1 : ¬t.val % 8 = 7) :
    outsAt1 V c t.val t.isLt = (VO1_3.junk, saccA V c t h0 h1) := by
  obtain ⟨n, hn⟩ := t
  cases n with
  | zero => rfl
  | succ n => exact (dif_pos h0).trans rfl

theorem outsAt1_B (c : Dev nD) (t : Fin cfg1.N) (h0 : ¬t.val % 8 = 0) (h1 : ¬t.val % 8 = 7) :
    outsAt1 V c t.val t.isLt = (VO1_3.junk, saccB V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (outC V c t h0 h1 (outsAt1 V c (t.val - 1) (Nat.lt_of_le_of_lt (Nat.sub_le _ _) t.isLt)).2, saccC V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The region's invariant: the accumulator at what the point before left -/

def PhiS (c : Dev nD) : (n : ℕ) → n ≤ cfg1.N → sProp 𝕄
  | 0, _ => Pipeline.ΦA spec1 c
  | n + 1, hn => PhiWith (F := F) c (owns (c : Thread nD τ) scM1 fullShare ((outsAt1 V c n hn).2))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = PhiWith (F := F) c (owns (c : Thread nD τ) scM1 fullShare ((outsAt1 V c n hn).2)) := rfl

theorem PhiS_pos (c : Dev nD) (n : ℕ) (h : n ≤ cfg1.N) (hz : n ≠ 0) :
    PhiS V c n h = PhiWith (F := F) c (owns (c : Thread nD τ) scM1 fullShare ((outsAt1 V c (n - 1) (by omega)).2)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.ReferenceIdeal.Hand1

end
-- ==== Proof.R1Body.lean ====
/-
  The second layer's region: the kernel body, at every point, takes the accumulator from what the point before left to
  what this point leaves (the case the point is in decides which), the input blocks unchanged, the output tile's buffer
  stored at k = 7 and handed back as found elsewhere.
-/
import proofs.«161882_g2000703798406267_pallasbulk_306_14_alg».proof.Proof.R1Data

set_option maxRecDepth 16384

noncomputable section

namespace Cert.ReferenceIdeal.Hand1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold saccA; (try dsimp only)
    by_cases hz : t.val = 0
    · rw [PhiS_castSucc V c t, PhiS_zero V c _ _ hz, PhiA1_eq]
      refine (sep_mono (PhiWith_split (F := F) c _) .rfl).trans ?_
      iintro ⟨⟨HS, Hoth⟩, Ho, ⟨%d0, H0⟩, ⟨%d1, H1⟩, ⟨%d2, H2⟩, ⟨%d3, H3⟩⟩
      · iapply ((runA V c t h0 h1).2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hoth]
        · iapply (PhiWith_join (F := F) c _)
          isplitl [HS]
          · unfold owns; iexists _; isplitr
            swap; · iexact HS
            ipureintro; exact View.read_writes_of_cover _ _ _ _ _ (scoverA V c t h0 h1)
          iexact Hoth
        isplitl [Ho]; · iexact Ho
        isplitl [H0]; · iexact H0
        isplitl [H1]; · iexact H1
        isplitl [H2]; · iexact H2
        iexists _; iexact H3
    · rw [PhiS_castSucc V c t, PhiS_pos V c _ _ hz]
      refine (sep_mono (PhiWith_split (F := F) c _) .rfl).trans ?_
      iintro ⟨⟨HS, Hoth⟩, Ho, ⟨%d0, H0⟩, ⟨%d1, H1⟩, ⟨%d2, H2⟩, ⟨%d3, H3⟩⟩
      · iapply ((runA V c t h0 h1).2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hoth]
        · iapply (PhiWith_join (F := F) c _)
          isplitl [HS]
          · unfold owns; iexists _; isplitr
            swap; · iexact HS
            ipureintro; exact View.read_writes_of_cover _ _ _ _ _ (scoverA V c t h0 h1)
          iexact Hoth
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold outC saccC; (try dsimp only)
      rw [PhiS_castSucc V c t, PhiS_pos V c _ _ hz]
      refine (sep_mono (PhiWith_split (F := F) c _) .rfl).trans ?_
      iintro ⟨⟨HS, Hoth⟩, Ho, ⟨%d0, H0⟩, ⟨%d1, H1⟩, ⟨%d2, H2⟩, ⟨%d3, H3⟩⟩
      iapply ((runC V c t h0 h1 _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth]
      · iapply (PhiWith_join (F := F) c _)
        isplitl [HS]
        · unfold owns; iexists _; isplitr
          swap; · iexact HS
          ipureintro; exact View.read_writes_of_cover _ _ _ _ _ (scoverC V c t h0 h1 _)
        iexact Hoth
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (ocoverC V c t h0 h1 _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold saccB; (try dsimp only)
      rw [PhiS_castSucc V c t, PhiS_pos V c _ _ hz]
      refine (sep_mono (PhiWith_split (F := F) c _) .rfl).trans ?_
      iintro ⟨⟨HS, Hoth⟩, Ho, ⟨%d0, H0⟩, ⟨%d1, H1⟩, ⟨%d2, H2⟩, ⟨%d3, H3⟩⟩
      · iapply ((runB V c t h0 h1 _).2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hoth]
        · iapply (PhiWith_join (F := F) c _)
          isplitl [HS]
          · unfold owns; iexists _; isplitr
            swap; · iexact HS
            ipureintro; exact View.read_writes_of_cover _ _ _ _ _ (scoverB V c t h0 h1 _)
          iexact Hoth
        isplitl [Ho]; · iexact Ho
        isplitl [H0]; · iexact H0
        isplitl [H1]; · iexact H1
        isplitl [H2]; · iexact H2
        iexists _; iexact H3

/-- The body's obligation to the pipeline, at every grid point. -/
theorem body_obligation1 (c : Dev nD) : BodyObligation (dat1 (F := F) V c) (defs₀ (F := F)) Variants.none () Set.univ := fun t => by
  rw [bigSep_W1, bigSep_W1]
  exact sound_body V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the accumulator back at some contents. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  refine (PhiWith_split (F := F) c _).trans ?_
  iintro ⟨HS, Hoth⟩
  iapply (PhiWith_join (F := F) c _)
  isplitl [HS]
  · iexists _; iexact HS
  iexact Hoth

end Cert.ReferenceIdeal.Hand1

end
-- ==== Proof.RRun.lean ====
/-
  The reference's run, from the launch to the return: the buffers' contents at each boundary between the two stretches of
  host operations and the two kernel regions, and the run itself with every buffer read off the last boundary.
  The contents fold through @main: the launch memory; after the first host stretch; after the first layer's region (its
  output array at what its write-backs leave); after the second host stretch; after the second layer's region.
-/
import proofs.«161882_g2000703798406267_pallasbulk_306_14_alg».proof.Proof.R0Body
import proofs.«161882_g2000703798406267_pallasbulk_306_14_alg».proof.Proof.R1Body
import proofs.«161882_g2000703798406267_pallasbulk_306_14_alg».proof.Proof.Gen.ReferenceIdeal.Regions
import Idealize.ShloMosaic.Lib.Pipeline.RegionsLoop

set_option maxRecDepth 16384

noncomputable section

namespace Cert.ReferenceIdeal.RV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At the launch. -/
abbrev W0 : Dev nD → Valuation τ sig (Elt F) := fun c b => m (c, b)
/-- After the first host stretch (the transposes and the paddings): the first region's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first region: its arrays at what the pipeline leaves, every other buffer as entered. -/
def W2 (c : Dev nD) : Valuation τ sig (Elt F) :=
  Pipeline.withArrays spec0 c (W1 m c) fun w => (Hand.dat0 (V1 m) c).arrAt w cfg0.N
theorem W2_arr (c : Dev nD) (w : Fin cfg0.W) :
    W2 m c (Proc.devRef .tc (Pipeline.arrRef spec0 w)) = (Hand.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Hand.dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the second host stretch: the second region's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second region. -/
def W4 (c : Dev nD) : Valuation τ sig (Elt F) :=
  Pipeline.withArrays spec1 c (W3 m c) fun w => (Hand1.dat1 (V3 m) c).arrAt w cfg1.N
theorem W4_arr (c : Dev nD) (w : Fin cfg1.W) :
    W4 m c (Proc.devRef .tc (Pipeline.arrRef spec1 w)) = (Hand1.dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (Hand1.dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- A buffer no host operation of the first stretch writes holds after it what it held at the launch. -/
theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h

/-- An argument array is written by no host operation and is no array of either region: it ends as launched. -/
theorem W4_arg (c : Dev nD) (r : Ref sig .tc) (h0 : r ∉ hostOps0_W) (h1 : r ∉ hostOps1_W)
    (ha0 : ∀ w, Pipeline.arrRef spec0 w ≠ r) (ha1 : ∀ w, Pipeline.arrRef spec1 w ≠ r) :
    W4 m c (Proc.devRef .tc r) = m ((c : Thread nD τ).loc r) :=
  (W4_of_ne m c r ha1).trans <| (W3_of m c r h1).trans <| (W2_of_ne m c r ha0).trans <| (W1_of m c r h0).trans rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => Hand.dat0 (V1 m) c
  | ⟨1, _⟩ => fun c => Hand1.dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered with every unscoped buffer at the contents before it, left with the region's
    arrays at what its write-backs leave and every other buffer as entered. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Hand.body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Hand.hin0 (V1 m) c)
    unfold Pipeline.ΦA
    iintro ⟨Hp, -, Hr⟩
    isplitl [Hr]; · iexact Hr
    iexact Hp
  hout c := by
    refine BIBase.Entails.trans (Hand.hout0 (V1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with the region's
    arrays at what its write-backs leave and every other buffer as entered. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Hand1.body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Hand1.hin1 (V3 m) c)
    unfold Pipeline.ΦA
    iintro ⟨Hp, -, Hr⟩
    isplitl [Hr]; · iexact Hr
    iexact Hp
  hout c := by
    refine BIBase.Entails.trans (Hand1.hout1 (V3 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every unscoped buffer ends at the last boundary's contents. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.ReferenceIdeal.RV

end
-- ==== Proof.LibScatterWhole.lean ====
/-
  A whole-array scatter that writes every element exactly where it came from returns the update.

  `Host.scatter` is a left fold, over the update's indices in row-major order, of point updates: update index j replaces
  the operand's element at its result index. When every update index j lands at operand index j (`resultIdx? j = some j`:
  the update has the operand's shape, the start is zero and the window is the whole array) and the body returns the
  update's element, each element of the operand is overwritten by the update's element at the same index — once, since
  the row-major enumeration is a bijection — so the result is the update, whatever the operand held. Proved symbolically:
  a fold of point updates at injective keys, read at an index, is the value of the key that hits it (`foldl_set_hit`),
  and an index no key hits keeps what it held (`foldl_set_miss`).
-/
import Idealize.ShloMosaic.PureOps.ShapeOps

namespace Idealize.ShloMosaic.HostScatter

open Idealize.ShloMosaic

/-- A fold of point updates leaves an index that no key of the list hits as it was. -/
theorem foldl_set_miss {ι α κ : Type} [DecidableEq ι] (e : κ → ι) (v : κ → α) :
    ∀ (l : List κ) (x : ι → α) (i : ι), (∀ n ∈ l, e n ≠ i) →
      (l.foldl (fun r n => fun i' => if i' = e n then v n else r i') x) i = x i
  | [], _, _, _ => rfl
  | a :: t, x, i, h => by
    rw [List.foldl_cons, foldl_set_miss e v t _ i fun n hn => h n (List.mem_cons_of_mem _ hn)]
    exact if_neg fun hi => h a List.mem_cons_self hi.symm

/-- A fold of point updates at injective keys, read at the index a key of the list hits, is that key's value: a later step
    at the same index could only be the same key's. -/
theorem foldl_set_hit {ι α κ : Type} [DecidableEq ι] (e : κ → ι) (he : Function.Injective e) (v : κ → α) :
    ∀ (l : List κ) (x : ι → α) (n : κ), n ∈ l →
      (l.foldl (fun r n => fun i' => if i' = e n then v n else r i') x) (e n) = v n
  | [], _, _, h => absurd h List.not_mem_nil
  | a :: t, x, n, h => by
    rw [List.foldl_cons]
    by_cases hn : n ∈ t
    · exact foldl_set_hit e he v t _ n hn
    · have hna : n = a := by
        rcases List.mem_cons.mp h with h' | h'
        · exact h'
        · exact absurd h' hn
      subst hna
      rw [foldl_set_miss e v t _ (e n) fun k hk hek => hn (he hek ▸ hk)]
      exact if_pos rfl

/-- THE WHOLE-ARRAY SET. A scatter whose update has the operand's shape, whose body returns the update's element, and
    whose every update index j lands at operand index j (`h`), is the update. -/
theorem scatter_set_eq_update {s si : Shape} {α : Type} {w : Nat} (d : ScatterDims s si s) (x : s.Idx → α)
    (idx : IVec si w) (upd : s.Idx → α) (h : ∀ j : s.Idx, d.resultIdx? j idx = some j) :
    Host.scatter d (fun _ b => b) x idx upd = upd := by
  unfold Host.scatter
  simp only [h]
  funext i
  have hit := foldl_set_hit (fun n : Fin s.numel => s.rowMajor.symm n) s.rowMajor.symm.injective
    (fun n => upd (s.rowMajor.symm n)) (List.finRange s.numel) x (s.rowMajor i) (List.mem_finRange _)
  simp only [Equiv.symm_apply_apply] at hit
  exact hit

/-- When the dimension numbers name no operand axis for the start index (so the start is zero on every axis) and the
    window coordinate on every axis is the update index's own coordinate, every update index lands at itself. -/
theorem resultIdx?_eq_self {s si : Shape} {w : Nat} (d : ScatterDims s si s) (idx : IVec si w)
    (hs : d.scatterDimsToOperandDims = []) (hw : ∀ (j : s.Idx) (a : Fin s.rank), d.window j a = (j a).val) (j : s.Idx) :
    d.resultIdx? j idx = some j := by
  have hst : ∀ a, d.start j idx a = 0 := fun a => by
    unfold ScatterDims.start
    rw [dif_neg (by rw [hs]; exact List.not_mem_nil)]
  have hcond : ∀ a, 0 ≤ d.start j idx a + (d.window j a : Int) ∧ d.start j idx a + (d.window j a : Int) < (s.size a : Int) :=
    fun a => by
      rw [hst a, hw j a]
      have := (j a).isLt
      omega
  unfold ScatterDims.resultIdx?
  rw [dif_pos hcond]
  refine congrArg some (funext fun a => Fin.ext ?_)
  show (d.start j idx a + (d.window j a : Int)).toNat = (j a).val
  rw [hst a, hw j a]
  omega

end Idealize.ShloMosaic.HostScatter
-- ==== Proof.RScatter.lean ====
/-
  The reference's zero padding: each `zeros(...).at[:n, :n].set(x)` of an array of the full size is a scatter of the whole
  array at an empty index vector. Its start is zero on both axes and its window is the whole array, so every update index
  lands at itself, and the scatter returns the update: the padded array is the array.
-/
import proofs.«161882_g2000703798406267_pallasbulk_306_14_alg».proof.Proof.LibScatterWhole
import proofs.«161882_g2000703798406267_pallasbulk_306_14_alg».proof.Proof.Gen.ReferenceIdeal

noncomputable section

namespace Cert.ReferenceIdeal.Hand

open Idealize.ShloMosaic Idealize.ShloMosaic.HostScatter
open Cert.ReferenceIdeal Cert.ReferenceIdeal.Gen

/-! ## The window coordinate is the update index's own coordinate -/

theorem window_g (j : S4096x4096.Idx) (a : Fin 2) : scatter_S4096x4096_S0_S4096x4096_01_n_n_0.window j a = (j a).val := by
  match a with
  | ⟨0, _⟩ => rfl
  | ⟨1, _⟩ => rfl

theorem window_z (j : S4096x128.Idx) (a : Fin 2) : scatter_S4096x128_S0_S4096x128_01_n_n_0.window j a = (j a).val := by
  match a with
  | ⟨0, _⟩ => rfl
  | ⟨1, _⟩ => rfl

theorem window_h (j : S4096x256.Idx) (a : Fin 2) : scatter_S4096x256_S0_S4096x256_01_n_n_0.window j a = (j a).val := by
  match a with
  | ⟨0, _⟩ => rfl
  | ⟨1, _⟩ => rfl

/-! ## Every update index lands at itself, whatever the (empty) index vector holds -/

theorem lands_g {w : Nat} (i : IVec S0 w) (j : S4096x4096.Idx) : scatter_S4096x4096_S0_S4096x4096_01_n_n_0.resultIdx? j i = some j :=
  resultIdx?_eq_self _ i rfl window_g j

theorem lands_z {w : Nat} (i : IVec S0 w) (j : S4096x128.Idx) : scatter_S4096x128_S0_S4096x128_01_n_n_0.resultIdx? j i = some j :=
  resultIdx?_eq_self _ i rfl window_z j

theorem lands_h {w : Nat} (i : IVec S0 w) (j : S4096x256.Idx) : scatter_S4096x256_S0_S4096x256_01_n_n_0.resultIdx? j i = some j :=
  resultIdx?_eq_self _ i rfl window_h j

/-! ## The three paddings return the update -/

theorem scatter_g {α : Type} {w : Nat} (x u : S4096x4096.Idx → α) (i : IVec S0 w) :
    Host.scatter scatter_S4096x4096_S0_S4096x4096_01_n_n_0 (fun _ b => b) x i u = u :=
  scatter_set_eq_update _ x i u (lands_g i)

theorem scatter_z {α : Type} {w : Nat} (x u : S4096x128.Idx → α) (i : IVec S0 w) :
    Host.scatter scatter_S4096x128_S0_S4096x128_01_n_n_0 (fun _ b => b) x i u = u :=
  scatter_set_eq_update _ x i u (lands_z i)

theorem scatter_h {α : Type} {w : Nat} (x u : S4096x256.Idx → α) (i : IVec S0 w) :
    Host.scatter scatter_S4096x256_S0_S4096x256_01_n_n_0 (fun _ b => b) x i u = u :=
  scatter_set_eq_update _ x i u (lands_h i)

end Cert.ReferenceIdeal.Hand

end
-- ==== Proof.RVals.lean ====
/-
  What the two regions of the reference find in their arrays. The first host stretch transposes W1 and W2 and pads g and z
  with zeros up to their own sizes, which leaves them as they are (a scatter of the whole array at the empty index); the second
  pads g again and the hidden layer. So the first region works on g, z and W1ᵀ, the second on g, the hidden layer the first
  region left, and W2ᵀ; and the argument arrays reach the end as launched.
-/
import proofs.«161882_g2000703798406267_pallasbulk_306_14_alg».proof.Proof.RRun
import proofs.«161882_g2000703798406267_pallasbulk_306_14_alg».proof.Proof.RScatter
import proofs.«161882_g2000703798406267_pallasbulk_306_14_alg».proof.Proof.Spec
import Idealize.ShloMosaic.Lib.StableHlo.Run

noncomputable section

namespace Cert.ReferenceIdeal.RV

open Idealize.ShloMosaic Idealize.ShloMosaic.TcCoe Idealize.ShloMosaic.Tactic Idealize.SL.Sem
open Cert.ReferenceIdeal Cert.ReferenceIdeal.Gen

variable {F : FTy → Type} [FloatOps F]
variable (m : (ℓ : Loc nD τ sig) → Buf (Elt F) ℓ)

/-! ## The first region's arrays -/

theorem V1_v3 (c : Dev nD) : V1 m c main_v3 = m ((c : Thread nD τ).loc main_arg0) := by
  show StableHlo.after hostOps0 (fun b => m (c, b)) (Proc.devRef .tc main_v3) = _
  after_results
  exact Hand.scatter_g _ _ _

theorem V1_v5 (c : Dev nD) : V1 m c main_v5 = m ((c : Thread nD τ).loc main_arg1) := by
  show StableHlo.after hostOps0 (fun b => m (c, b)) (Proc.devRef .tc main_v5) = _
  after_results
  exact Hand.scatter_z _ _ _

theorem V1_v0 (c : Dev nD) : V1 m c main_v0 = Cert.GcnSpec.w1t (F := F) (m ((c : Thread nD τ).loc main_arg2)) := by
  show StableHlo.after hostOps0 (fun b => m (c, b)) (Proc.devRef .tc main_v0) = _
  after_results
  rfl

theorem V1_v1 (c : Dev nD) : V1 m c main_v1 = Cert.GcnSpec.w2t (F := F) (m ((c : Thread nD τ).loc main_arg3)) := by
  show StableHlo.after hostOps0 (fun b => m (c, b)) (Proc.devRef .tc main_v1) = _
  after_results
  rfl

/-! ## The second region's arrays -/

theorem V2_arg0 (c : Dev nD) : W2 m c (Proc.devRef .tc main_arg0) = m ((c : Thread nD τ).loc main_arg0) :=
  (W2_of_ne m c main_arg0 (by decide)).trans <| (W1_of m c main_arg0 (by decide)).trans rfl

theorem V3_v8 (c : Dev nD) : V3 m c main_v8 = m ((c : Thread nD τ).loc main_arg0) := by
  show StableHlo.after hostOps1 (W2 m c) (Proc.devRef .tc main_v8) = _
  after_results
  exact (Hand.scatter_g _ _ _).trans (V2_arg0 m c)

/-- The hidden layer as the first region left it. -/
theorem V3_v10 (c : Dev nD) : V3 m c main_v10 = (Hand.dat0 (V1 m) c).arrAt 3 cfg0.N := by
  show StableHlo.after hostOps1 (W2 m c) (Proc.devRef .tc main_v10) = _
  after_results
  exact (Hand.scatter_h _ _ _).trans (W2_arr m c 3)

theorem V3_v1 (c : Dev nD) : V3 m c main_v1 = Cert.GcnSpec.w2t (F := F) (m ((c : Thread nD τ).loc main_arg3)) :=
  (W3_of m c main_v1 (by decide)).trans <| (W2_of_ne m c main_v1 (by decide)).trans (V1_v1 m c)

/-! ## The results and the arguments at the end -/

theorem W4_v11 (c : Dev nD) : W4 m c (Proc.devRef .tc main_v11) = (Hand1.dat1 (V3 m) c).arrAt 3 cfg1.N := W4_arr m c 3

theorem W4_v6 (c : Dev nD) : W4 m c (Proc.devRef .tc main_v6) = (Hand.dat0 (V1 m) c).arrAt 3 cfg0.N :=
  (W4_of_ne m c main_v6 (by decide)).trans <| (W3_of m c main_v6 (by decide)).trans (W2_arr m c 3)

theorem W4_arg0 (c : Dev nD) : W4 m c (Proc.devRef .tc main_arg0) = m ((c : Thread nD τ).loc main_arg0) :=
  W4_arg m c main_arg0 (by decide) (by decide) (by decide) (by decide)
theorem W4_arg1 (c : Dev nD) : W4 m c (Proc.devRef .tc main_arg1) = m ((c : Thread nD τ).loc main_arg1) :=
  W4_arg m c main_arg1 (by decide) (by decide) (by decide) (by decide)
theorem W4_arg2 (c : Dev nD) : W4 m c (Proc.devRef .tc main_arg2) = m ((c : Thread nD τ).loc main_arg2) :=
  W4_arg m c main_arg2 (by decide) (by decide) (by decide) (by decide)
theorem W4_arg3 (c : Dev nD) : W4 m c (Proc.devRef .tc main_arg3) = m ((c : Thread nD τ).loc main_arg3) :=
  W4_arg m c main_arg3 (by decide) (by decide) (by decide) (by decide)

end Cert.ReferenceIdeal.RV

end
-- ==== Proof.R0Val.lean ====
/-
  The first layer's region, read: the accumulator after point 8·i + k is the common function's partial sum of row tile i's
  first k + 1 terms, the output tile after the last term is the hidden-layer tile, and the output array after the region is
  the common function's hidden layer of the arrays the region finds.
-/
import proofs.«161882_g2000703798406267_pallasbulk_306_14_alg».proof.Proof.R0Data
import proofs.«161882_g2000703798406267_pallasbulk_306_14_alg».proof.Proof.Spec
import Idealize.ShloMosaic.Lib.Pipeline.Value

set_option maxRecDepth 16384

noncomputable section

namespace Cert.ReferenceIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Cert.GcnSpec (gT rowT stack fin8)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves, as payloads of the point's blocks -/

/-- The zero offsets, however spelt. -/
theorem hz : (![0, 0] : Fin 2 → Nat) = fun _ => 0 := funext fun a => by fin_cases a <;> rfl

/-- The accumulator read back at the contents it is held at. -/
theorem read_acc (h : scM0.IsWhole) (xs : Vec F S512x256 .f32) :
    View.read (Elt F) (View.whole cc0_scratch0) (h.unread xs) = xs :=
  h.read_unread xs

theorem saccB_eq (c : Dev nD) (t : Fin cfg0.N) (h0 : ¬t.val % 8 = 0) (h1 : ¬t.val % 8 = 7) (xs : Vec F S512x256 .f32) :
    saccB V c t h0 h1 xs = k0_pay2 (iblk0 V c 0 t) (iblk0 V c 1 t) xs (iblk0 V c 2 t) := by
  unfold saccB
  rw [View.read_writes_eq_canon _ _ _ (scoverB V c t h0 h1 xs)]
  unfold runB kernelRun0_B
  dsimp only
  sl_unfold_words
  rw [View.canon_unit_zero hz]
  simp only [View.readAt_eq_ld, Memref.IsWhole.read_unread, View.ld_unit_zero (S := S512x512) hz, View.ld_unit_zero (S := S512x128) hz, View.ld_unit_zero (S := S512x256) hz, View.ld_unit_zero (S := S128x256) hz]
  rw [read_acc]

theorem saccA_eq (c : Dev nD) (t : Fin cfg0.N) (h0 : t.val % 8 = 0) (h1 : ¬t.val % 8 = 7) :
    saccA V c t h0 h1 = k0_pay2 (iblk0 V c 0 t) (iblk0 V c 1 t) (k0_pay1 (F := F)) (iblk0 V c 2 t) := by
  unfold saccA
  rw [View.read_writes_eq_canon _ _ _ (scoverA V c t h0 h1)]
  unfold runA kernelRun0_A
  dsimp only
  sl_unfold_words
  rw [View.canon_cons_unit_zero hz]
  simp only [View.readAt_eq_ld, Memref.IsWhole.read_unread, View.ld_unit_zero (S := S512x512) hz, View.ld_unit_zero (S := S512x128) hz, View.ld_unit_zero (S := S512x256) hz, View.ld_unit_zero (S := S128x256) hz]
  rw [View.readCov_unit_zero _ hz]

theorem saccC_eq (c : Dev nD) (t : Fin cfg0.N) (h0 : ¬t.val % 8 = 0) (h1 : t.val % 8 = 7) (xs : Vec F S512x256 .f32) :
    saccC V c t h0 h1 xs = k0_pay2 (iblk0 V c 0 t) (iblk0 V c 1 t) xs (iblk0 V c 2 t) := by
  unfold saccC
  rw [View.read_writes_eq_canon _ _ _ (scoverC V c t h0 h1 xs)]
  unfold runC kernelRun0_C
  dsimp only
  sl_unfold_words
  rw [View.canon_unit_zero hz]
  simp only [View.readAt_eq_ld, Memref.IsWhole.read_unread, View.ld_unit_zero (S := S512x512) hz, View.ld_unit_zero (S := S512x128) hz, View.ld_unit_zero (S := S512x256) hz, View.ld_unit_zero (S := S128x256) hz]
  rw [read_acc]

theorem outC_eq (c : Dev nD) (t : Fin cfg0.N) (h0 : ¬t.val % 8 = 0) (h1 : t.val % 8 = 7) (xs : Vec F S512x256 .f32) :
    outC V c t h0 h1 xs = k0_pay3 (k0_pay2 (iblk0 V c 0 t) (iblk0 V c 1 t) xs (iblk0 V c 2 t)) := by
  unfold outC
  rw [View.read_writes_eq_canon _ _ _ (ocoverC V c t h0 h1 xs)]
  unfold runC kernelRun0_C
  dsimp only
  sl_unfold_words
  rw [View.canon_unit_zero hz]
  rw [View.readCov_unit_zero _ hz]
  simp only [View.readAt_eq_ld, Memref.IsWhole.read_unread, View.ld_unit_zero (S := S512x512) hz, View.ld_unit_zero (S := S512x128) hz, View.ld_unit_zero (S := S512x256) hz, View.ld_unit_zero (S := S128x256) hz]
  rw [read_acc]

/-! ## The payloads are the common function's steps -/

/-- The accumulator's reset value is the all-zero tile. -/
theorem pay1_eq : k0_pay1 (F := F) = Cert.GcnSpec.zeroTH := by
  unfold k0_pay1
  exact shapeCast_self _ _

/-- One step: the accumulator plus the term (g[i,k] · z[k]) · W1ᵀ of the blocks loaded (the same-shape casts are the identity). -/
theorem pay2_eq (g : Vec F S4096x4096 .f32) (z : Vec F S4096x128 .f32) (a : Vec F S128x256 .f32) (i k : Fin 8) (xs : Vec F S512x256 .f32) :
    k0_pay2 (gT g i k) (rowT z k) xs a = addf xs (Cert.GcnSpec.term1 g z a i k) := by
  unfold k0_pay2
  simp only [shapeCast_self]
  rfl

/-- The last step's store: the maximum with zero. -/
theorem pay3_eq (v : Vec F S512x256 .f32) : k0_pay3 v = maximumf v Cert.GcnSpec.zeroTH := rfl

/-- The partial sums, one more term at a time. -/
theorem acc1_succ (g : Vec F S4096x4096 .f32) (z : Vec F S4096x128 .f32) (a : Vec F S128x256 .f32) (i : Fin 8) (n : ℕ) :
    Cert.GcnSpec.acc1 g z a i (n + 1) = addf (Cert.GcnSpec.acc1 g z a i n) (Cert.GcnSpec.term1 g z a i (fin8 n)) := rfl

/-! ## The blocks at a point of the 8 × 8 grid: point n = 8·i + k works on row tile i and term k -/

/-- The row tile a point works on. -/
def rowN (n : ℕ) : Fin 8 := fin8 (n / 8)

/-- The index maps, decided over the grid. -/
theorem idx0 : ∀ t : Fin cfg0.N,
    (win0_0.index t (0 : Fin 2) = t.val / 8 ∧ win0_0.index t (1 : Fin 2) = t.val % 8)
    ∧ (win0_1.index t (0 : Fin 2) = t.val % 8 ∧ win0_1.index t (1 : Fin 2) = 0)
    ∧ (win0_2.index t (0 : Fin 2) = 0 ∧ win0_2.index t (1 : Fin 2) = 0)
    ∧ (win0_3.index t (0 : Fin 2) = t.val / 8 ∧ win0_3.index t (1 : Fin 2) = 0) :=
  (by decide +kernel : ∀ t : Fin grid0.N, _)

/-- g's block at point 8·i + k is block (i, k): an element of a block sits at block index × block size + its own coordinate. -/
theorem blk0_0 (X : Vec F S4096x4096 .f32) (t : Fin cfg0.N) :
    ((cfg0.win 0).blk t).view.read (Elt F) X = gT X (rowN t.val) (fin8 t.val) := by
  obtain ⟨⟨h0, h1⟩, -⟩ := idx0 t
  have ht : t.val < 64 := lt_of_lt_of_eq t.isLt N_0
  funext y
  show X (((cfg0.win 0).blk t).view.emb y) = X _
  refine congrArg X ?_
  funext a
  match a with
  | ⟨0, _⟩ =>
    refine Fin.ext ?_
    show win0_0.index t (0 : Fin 2) * 512 + 1 * (y 0).val = 512 * (t.val / 8 % 8) + (y 0).val
    omega
  | ⟨1, _⟩ =>
    refine Fin.ext ?_
    show win0_0.index t (1 : Fin 2) * 512 + 1 * (y 1).val = 512 * (t.val % 8) + (y 1).val
    omega

/-- z's block at point 8·i + k is row tile k. -/
theorem blk0_1 (X : Vec F S4096x128 .f32) (t : Fin cfg0.N) :
    ((cfg0.win 1).blk t).view.read (Elt F) X = rowT X (fin8 t.val) := by
  obtain ⟨-, ⟨h0, h1⟩, -⟩ := idx0 t
  funext y
  show X (((cfg0.win 1).blk t).view.emb y) = X _
  refine congrArg X ?_
  funext a
  match a with
  | ⟨0, _⟩ =>
    refine Fin.ext ?_
    show win0_1.index t (0 : Fin 2) * 512 + 1 * (y 0).val = 512 * (t.val % 8) + (y 0).val
    omega
  | ⟨1, _⟩ =>
    refine Fin.ext ?_
    show win0_1.index t (1 : Fin 2) * 128 + 1 * (y 1).val = (y 1).val
    omega

/-- The block of W1ᵀ is the whole array. -/
theorem blk0_2 (X : Vec F S128x256 .f32) (t : Fin cfg0.N) : ((cfg0.win 2).blk t).view.read (Elt F) X = X := by
  obtain ⟨-, -, ⟨h0, h1⟩, -⟩ := idx0 t
  funext y
  show X (((cfg0.win 2).blk t).view.emb y) = X y
  refine congrArg X ?_
  funext a
  match a with
  | ⟨0, _⟩ =>
    refine Fin.ext ?_
    show win0_2.index t (0 : Fin 2) * 128 + 1 * (y 0).val = (y 0).val
    omega
  | ⟨1, _⟩ =>
    refine Fin.ext ?_
    show win0_2.index t (1 : Fin 2) * 256 + 1 * (y 1).val = (y 1).val
    omega

/-- The output's block at point 8·i + k is row tile i. -/
theorem blk0_3 (X : Vec F S4096x256 .f32) (t : Fin cfg0.N) :
    ((cfg0.win 3).blk t).view.read (Elt F) X = rowT X (rowN t.val) := by
  obtain ⟨-, -, -, ⟨h0, h1⟩⟩ := idx0 t
  have ht : t.val < 64 := lt_of_lt_of_eq t.isLt N_0
  funext y
  show X (((cfg0.win 3).blk t).view.emb y) = X _
  refine congrArg X ?_
  funext a
  match a with
  | ⟨0, _⟩ =>
    refine Fin.ext ?_
    show win0_3.index t (0 : Fin 2) * 512 + 1 * (y 0).val = 512 * (t.val / 8 % 8) + (y 0).val
    omega
  | ⟨1, _⟩ =>
    refine Fin.ext ?_
    show win0_3.index t (1 : Fin 2) * 256 + 1 * (y 1).val = (y 1).val
    omega

/-! ## The accumulator after each point is the common function's partial sum -/

/-- The second component of a pair known by an equation. -/
theorem snd_of_eq {α β : Type} {p : α × β} {a : α} {b : β} (h : p = (a, b)) : p.2 = b := by subst h; rfl

/-- One step at point n, on the point's blocks: the accumulator plus term n % 8 of row tile n / 8. -/
theorem step_eq (c : Dev nD) (n : ℕ) (hn : n < cfg0.N) (xs : Vec F S512x256 .f32) :
    k0_pay2 (iblk0 V c 0 ⟨n, hn⟩) (iblk0 V c 1 ⟨n, hn⟩) xs (iblk0 V c 2 ⟨n, hn⟩)
      = addf xs (Cert.GcnSpec.term1 (V c main_v3) (V c main_v5) (V c main_v0) (rowN n) (fin8 n)) := by
  have e0 : iblk0 V c 0 ⟨n, hn⟩ = gT (V c main_v3) (rowN n) (fin8 n) := blk0_0 (V c main_v3) ⟨n, hn⟩
  have e1 : iblk0 V c 1 ⟨n, hn⟩ = rowT (V c main_v5) (fin8 n) := blk0_1 (V c main_v5) ⟨n, hn⟩
  have e2 : iblk0 V c 2 ⟨n, hn⟩ = V c main_v0 := blk0_2 (V c main_v0) ⟨n, hn⟩
  rw [e0, e1, e2, pay2_eq]

/-- After point n = 8·i + k the accumulator holds the first k + 1 terms of row tile i's sum, added to zero from the left:
    by induction on the point — reset and first term at k = 0, one more term otherwise. -/
theorem acc_eq (c : Dev nD) : ∀ (n : ℕ) (hn : n < cfg0.N),
    (outsAt0 V c n hn).2 = Cert.GcnSpec.acc1 (V c main_v3) (V c main_v5) (V c main_v0) (rowN n) (n % 8 + 1)
  | 0, hn => by
    have h0 : (0 : ℕ) % 8 = 0 := Nat.zero_mod _
    have h1 : ¬(0 : ℕ) % 8 = 7 := by decide
    have e : (outsAt0 V c 0 hn).2 = saccA V c ⟨0, hn⟩ h0 h1 :=
      snd_of_eq (outsAt0_A V c ⟨0, hn⟩ h0 h1)
    rw [e, saccA_eq, step_eq, pay1_eq]
    exact (acc1_succ _ _ _ _ 0).symm
  | n + 1, hn => by
    have ih := acc_eq c n (Nat.lt_of_succ_lt hn)
    have hN : n + 1 < 64 := lt_of_lt_of_eq hn N_0
    by_cases h0 : (n + 1) % 8 = 0
    · have h1 : ¬(n + 1) % 8 = 7 := by omega
      have e : (outsAt0 V c (n + 1) hn).2 = saccA V c ⟨n + 1, hn⟩ h0 h1 :=
        snd_of_eq (outsAt0_A V c ⟨n + 1, hn⟩ h0 h1)
      rw [e, saccA_eq, step_eq, pay1_eq, h0, acc1_succ,
        show fin8 (n + 1) = fin8 0 from Fin.ext (by show (n + 1) % 8 = 0 % 8; omega)]
      rfl
    · have hrow : rowN n = rowN (n + 1) := congrArg fin8 (by omega)
      have hk : n % 8 + 1 = (n + 1) % 8 := by omega
      have hfin : fin8 (n + 1) = fin8 ((n + 1) % 8) := Fin.ext (by show (n + 1) % 8 = (n + 1) % 8 % 8; omega)
      by_cases h1 : (n + 1) % 8 = 7
      · have e : (outsAt0 V c (n + 1) hn).2 = saccC V c ⟨n + 1, hn⟩ h0 h1 (outsAt0 V c n (Nat.lt_of_succ_lt hn)).2 :=
          snd_of_eq (outsAt0_C V c ⟨n + 1, hn⟩ h0 h1)
        rw [e, saccC_eq, step_eq, ih, hrow, hk, hfin, acc1_succ]
      · have e : (outsAt0 V c (n + 1) hn).2 = saccB V c ⟨n + 1, hn⟩ h0 h1 (outsAt0 V c n (Nat.lt_of_succ_lt hn)).2 :=
          snd_of_eq (outsAt0_B V c ⟨n + 1, hn⟩ h0 h1)
        rw [e, saccB_eq, step_eq, ih, hrow, hk, hfin, acc1_succ]

/-- At the last term of a row tile the output tile's buffer holds the maximum of the whole sum with zero: the hidden-layer tile. -/
theorem out_eq (c : Dev nD) (t : Fin cfg0.N) (h1 : t.val % 8 = 7) :
    (outsAt0 V c t.val t.isLt).1 = Cert.GcnSpec.z1T (V c main_v3) (V c main_v5) (V c main_v0) (rowN t.val) := by
  have h0 : ¬t.val % 8 = 0 := by omega
  have e := outsAt0_C V c t h0 h1
  have e2 := (congrArg Prod.snd e).symm.trans (acc_eq V c t.val t.isLt)
  have e1 := congrArg Prod.fst e
  dsimp only at e1 e2
  rw [e1, outC_eq, ← saccC_eq V c t h0 h1, e2, h1, pay3_eq]
  rfl

/-! ## From blocks to the array -/

/-- A writing-back point (the last term of its row tile) writes back row tile i of the hidden layer. -/
theorem flushed0_3 (c : Dev nD) (t : Fin cfg0.N) (hf : (cfg0.win 3).flush t = true) :
    (dat0 V c).flushed 3 t = ((cfg0.win 3).blk t).view.read (Elt F)
      (stack (Cert.GcnSpec.z1T (V c main_v3) (V c main_v5) (V c main_v0)) : Vec F S4096x256 .f32) := by
  have h1 : t.val % 8 = 7 := (flush0_3 t).mp hf
  show (cfg0.win 3).cut (grid0.coords t) ((dat0 V c).after 3 t) = _
  rw [after0_3, out_eq V c t h1]
  refine ((blk0_3 _ t).trans ?_).symm
  exact Cert.GcnSpec.rowT_stack _ (rowN t.val)

/-- An index of the output array is in point t's block iff each coordinate is in the block's range on its axis. -/
theorem mem_blk0_3 (t : Fin cfg0.N) (i : S4096x256.Idx) :
    i ∈ ((cfg0.win 3).blk t).view.set ↔ ∀ a : Fin 2, win0_3.index t a * S512x256.size a ≤ (i a).val ∧ (i a).val < win0_3.index t a * S512x256.size a + S512x256.size a := by
  show i ∈ ((View.whole main_v6).slice (win0_3.rect t)).set ↔ _
  rw [View.set_slice_whole, Rect.mem_set_unit]
  exact Iff.rfl

/-- Row r lies in the block of the point 8·(r / 512) + 7, which writes back: the writing-back points' blocks cover the array. -/
theorem covers0_3 (i : S4096x256.Idx) :
    ∃ t : Fin cfg0.N, (cfg0.win 3).flush t = true ∧ i ∈ ((cfg0.win 3).blk t).view.set := by
  have hi0 : (i 0).val < 4096 := idx2_lt0 i
  have hi1 : (i 1).val < 256 := idx2_lt1 i
  have hN : cfg0.N = 64 := N_0
  have ht : 8 * ((i 0).val / 512) + 7 < cfg0.N := by rw [hN]; omega
  obtain ⟨-, -, -, ⟨h0, h1⟩⟩ := idx0 ⟨8 * ((i 0).val / 512) + 7, ht⟩
  refine ⟨⟨8 * ((i 0).val / 512) + 7, ht⟩, (flush0_3 _).mpr (by show (8 * ((i 0).val / 512) + 7) % 8 = 7; omega), ?_⟩
  rw [mem_blk0_3]
  intro a
  match a with
  | ⟨0, _⟩ =>
    show win0_3.index ⟨8 * ((i 0).val / 512) + 7, ht⟩ (0 : Fin 2) * 512 ≤ (i 0).val ∧ (i 0).val < win0_3.index ⟨8 * ((i 0).val / 512) + 7, ht⟩ (0 : Fin 2) * 512 + 512
    rw [h0]
    show (8 * ((i 0).val / 512) + 7) / 8 * 512 ≤ (i 0).val ∧ (i 0).val < (8 * ((i 0).val / 512) + 7) / 8 * 512 + 512
    omega
  | ⟨1, _⟩ =>
    show win0_3.index ⟨8 * ((i 0).val / 512) + 7, ht⟩ (1 : Fin 2) * 256 ≤ (i 1).val ∧ (i 1).val < win0_3.index ⟨8 * ((i 0).val / 512) + 7, ht⟩ (1 : Fin 2) * 256 + 256
    rw [h1]
    omega

/-- The output array after the region: the common function's hidden layer of the arrays the region finds. -/
theorem arr0_3 (c : Dev nD) : (dat0 V c).arrAt 3 cfg0.N = Cert.GcnSpec.stack (Cert.GcnSpec.z1T (V c main_v3) (V c main_v5) (V c main_v0)) :=
  (dat0 V c).arrAt_eq_of_cover 3 _ (fun t hf => flushed0_3 V c t hf) covers0_3

end Cert.ReferenceIdeal.Hand

end
-- ==== Proof.R1Val.lean ====
/-
  The second layer's region, read: the accumulator after point 8·i + k is the common function's partial sum of row tile i's
  first k + 1 terms g[i,k'] · p_k', with p_k' row tile k' of the hidden layer times W2ᵀ; the output tile after the last
  term is the logistic of the whole sum; and the output array after the region is the common function's second layer of the
  arrays the region finds.
-/
import proofs.«161882_g2000703798406267_pallasbulk_306_14_alg».proof.Proof.R1Data
import proofs.«161882_g2000703798406267_pallasbulk_306_14_alg».proof.Proof.Spec
import Idealize.ShloMosaic.Lib.Pipeline.Value

set_option maxRecDepth 16384

noncomputable section

namespace Cert.ReferenceIdeal.Hand1

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Cert.GcnSpec (gT rowT stack fin8)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves, as payloads of the point's blocks -/

/-- The zero offsets, however spelt. -/
theorem hz : (![0, 0] : Fin 2 → Nat) = fun _ => 0 := funext fun a => by fin_cases a <;> rfl

/-- The accumulator read back at the contents it is held at. -/
theorem read_acc (h : scM1.IsWhole) (xs : Vec F S512x128 .f32) :
    View.read (Elt F) (View.whole cc1_scratch0) (h.unread xs) = xs :=
  h.read_unread xs

theorem saccB_eq (c : Dev nD) (t : Fin cfg1.N) (h0 : ¬t.val % 8 = 0) (h1 : ¬t.val % 8 = 7) (xs : Vec F S512x128 .f32) :
    saccB V c t h0 h1 xs = k1_pay2 (iblk1 V c 1 t) (iblk1 V c 2 t) xs (iblk1 V c 0 t) := by
  unfold saccB
  rw [View.read_writes_eq_canon _ _ _ (scoverB V c t h0 h1 xs)]
  unfold runB kernelRun1_B
  dsimp only
  sl_unfold_words
  rw [View.canon_unit_zero hz]
  simp only [View.readAt_eq_ld, Memref.IsWhole.read_unread, View.ld_unit_zero (S := S512x512) hz, View.ld_unit_zero (S := S512x256) hz, View.ld_unit_zero (S := S256x128) hz, View.ld_unit_zero (S := S512x128) hz]
  rw [read_acc]

theorem saccA_eq (c : Dev nD) (t : Fin cfg1.N) (h0 : t.val % 8 = 0) (h1 : ¬t.val % 8 = 7) :
    saccA V c t h0 h1 = k1_pay2 (iblk1 V c 1 t) (iblk1 V c 2 t) (k1_pay1 (F := F)) (iblk1 V c 0 t) := by
  unfold saccA
  rw [View.read_writes_eq_canon _ _ _ (scoverA V c t h0 h1)]
  unfold runA kernelRun1_A
  dsimp only
  sl_unfold_words
  rw [View.canon_cons_unit_zero hz]
  simp only [View.readAt_eq_ld, Memref.IsWhole.read_unread, View.ld_unit_zero (S := S512x512) hz, View.ld_unit_zero (S := S512x256) hz, View.ld_unit_zero (S := S256x128) hz, View.ld_unit_zero (S := S512x128) hz]
  rw [View.readCov_unit_zero _ hz]

theorem saccC_eq (c : Dev nD) (t : Fin cfg1.N) (h0 : ¬t.val % 8 = 0) (h1 : t.val % 8 = 7) (xs : Vec F S512x128 .f32) :
    saccC V c t h0 h1 xs = k1_pay2 (iblk1 V c 1 t) (iblk1 V c 2 t) xs (iblk1 V c 0 t) := by
  unfold saccC
  rw [View.read_writes_eq_canon _ _ _ (scoverC V c t h0 h1 xs)]
  unfold runC kernelRun1_C
  dsimp only
  sl_unfold_words
  rw [View.canon_unit_zero hz]
  simp only [View.readAt_eq_ld, Memref.IsWhole.read_unread, View.ld_unit_zero (S := S512x512) hz, View.ld_unit_zero (S := S512x256) hz, View.ld_unit_zero (S := S256x128) hz, View.ld_unit_zero (S := S512x128) hz]
  rw [read_acc]

theorem outC_eq (c : Dev nD) (t : Fin cfg1.N) (h0 : ¬t.val % 8 = 0) (h1 : t.val % 8 = 7) (xs : Vec F S512x128 .f32) :
    outC V c t h0 h1 xs = k1_pay3 (k1_pay2 (iblk1 V c 1 t) (iblk1 V c 2 t) xs (iblk1 V c 0 t)) := by
  unfold outC
  rw [View.read_writes_eq_canon _ _ _ (ocoverC V c t h0 h1 xs)]
  unfold runC kernelRun1_C
  dsimp only
  sl_unfold_words
  rw [View.canon_unit_zero hz]
  rw [View.readCov_unit_zero _ hz]
  simp only [View.readAt_eq_ld, Memref.IsWhole.read_unread, View.ld_unit_zero (S := S512x512) hz, View.ld_unit_zero (S := S512x256) hz, View.ld_unit_zero (S := S256x128) hz, View.ld_unit_zero (S := S512x128) hz]
  rw [read_acc]

/-! ## The payloads are the common function's steps -/

/-- The accumulator's reset value is the all-zero tile. -/
theorem pay1_eq : k1_pay1 (F := F) = Cert.GcnSpec.zeroTZ := by
  unfold k1_pay1
  exact shapeCast_self _ _

/-- One step: the accumulator plus the term g[i,k] · p_k of the blocks loaded, where p_k is row tile k of the hidden layer
    times W2ᵀ (the same-shape casts are the identity). -/
theorem pay2_eq (g : Vec F S4096x4096 .f32) (zz : Vec F S4096x256 .f32) (b : Vec F S256x128 .f32) (i k : Fin 8) (xs : Vec F S512x128 .f32) :
    k1_pay2 (rowT zz k) b xs (gT g i k)
      = addf xs (Cert.GcnSpec.term2 g (fun k' => matmul Cert.GcnSpec.dW2 none (rowT zz k') b (constant Cert.GcnSpec.TZ .f32 0x00000000#32)) i k) := by
  unfold k1_pay2
  simp only [shapeCast_self]
  rfl

/-- The last step's store: the logistic. -/
theorem pay3_eq (v : Vec F S512x128 .f32) : k1_pay3 v = logistic v := rfl

/-- The partial sums, one more term at a time. -/
theorem acc2_succ (g : Vec F S4096x4096 .f32) (p : Fin 8 → Vec F S512x128 .f32) (i : Fin 8) (n : ℕ) :
    Cert.GcnSpec.acc2 g p i (n + 1) = addf (Cert.GcnSpec.acc2 g p i n) (Cert.GcnSpec.term2 g p i (fin8 n)) := rfl

/-! ## The blocks at a point of the 8 × 8 grid: point n = 8·i + k works on row tile i and term k -/

/-- The row tile a point works on. -/
def rowN (n : ℕ) : Fin 8 := fin8 (n / 8)

/-- The index maps, decided over the grid. -/
theorem idx1 : ∀ t : Fin cfg1.N,
    (win1_0.index t (0 : Fin 2) = t.val / 8 ∧ win1_0.index t (1 : Fin 2) = t.val % 8)
    ∧ (win1_1.index t (0 : Fin 2) = t.val % 8 ∧ win1_1.index t (1 : Fin 2) = 0)
    ∧ (win1_2.index t (0 : Fin 2) = 0 ∧ win1_2.index t (1 : Fin 2) = 0)
    ∧ (win1_3.index t (0 : Fin 2) = t.val / 8 ∧ win1_3.index t (1 : Fin 2) = 0) :=
  (by decide +kernel : ∀ t : Fin grid1.N, _)

/-- g's block at point 8·i + k is block (i, k): an element of a block sits at block index × block size + its own coordinate. -/
theorem blk1_0 (X : Vec F S4096x4096 .f32) (t : Fin cfg1.N) :
    ((cfg1.win 0).blk t).view.read (Elt F) X = gT X (rowN t.val) (fin8 t.val) := by
  obtain ⟨⟨h0, h1⟩, -⟩ := idx1 t
  have ht : t.val < 64 := lt_of_lt_of_eq t.isLt N_1
  funext y
  show X (((cfg1.win 0).blk t).view.emb y) = X _
  refine congrArg X ?_
  funext a
  match a with
  | ⟨0, _⟩ =>
    refine Fin.ext ?_
    show win1_0.index t (0 : Fin 2) * 512 + 1 * (y 0).val = 512 * (t.val / 8 % 8) + (y 0).val
    omega
  | ⟨1, _⟩ =>
    refine Fin.ext ?_
    show win1_0.index t (1 : Fin 2) * 512 + 1 * (y 1).val = 512 * (t.val % 8) + (y 1).val
    omega

/-- The hidden layer's block at point 8·i + k is its row tile k. -/
theorem blk1_1 (X : Vec F S4096x256 .f32) (t : Fin cfg1.N) :
    ((cfg1.win 1).blk t).view.read (Elt F) X = rowT X (fin8 t.val) := by
  obtain ⟨-, ⟨h0, h1⟩, -⟩ := idx1 t
  funext y
  show X (((cfg1.win 1).blk t).view.emb y) = X _
  refine congrArg X ?_
  funext a
  match a with
  | ⟨0, _⟩ =>
    refine Fin.ext ?_
    show win1_1.index t (0 : Fin 2) * 512 + 1 * (y 0).val = 512 * (t.val % 8) + (y 0).val
    omega
  | ⟨1, _⟩ =>
    refine Fin.ext ?_
    show win1_1.index t (1 : Fin 2) * 256 + 1 * (y 1).val = (y 1).val
    omega

/-- The block of W2ᵀ is the whole array. -/
theorem blk1_2 (X : Vec F S256x128 .f32) (t : Fin cfg1.N) : ((cfg1.win 2).blk t).view.read (Elt F) X = X := by
  obtain ⟨-, -, ⟨h0, h1⟩, -⟩ := idx1 t
  funext y
  show X (((cfg1.win 2).blk t).view.emb y) = X y
  refine congrArg X ?_
  funext a
  match a with
  | ⟨0, _⟩ =>
    refine Fin.ext ?_
    show win1_2.index t (0 : Fin 2) * 256 + 1 * (y 0).val = (y 0).val
    omega
  | ⟨1, _⟩ =>
    refine Fin.ext ?_
    show win1_2.index t (1 : Fin 2) * 128 + 1 * (y 1).val = (y 1).val
    omega

/-- The output's block at point 8·i + k is row tile i. -/
theorem blk1_3 (X : Vec F S4096x128 .f32) (t : Fin cfg1.N) :
    ((cfg1.win 3).blk t).view.read (Elt F) X = rowT X (rowN t.val) := by
  obtain ⟨-, -, -, ⟨h0, h1⟩⟩ := idx1 t
  have ht : t.val < 64 := lt_of_lt_of_eq t.isLt N_1
  funext y
  show X (((cfg1.win 3).blk t).view.emb y) = X _
  refine congrArg X ?_
  funext a
  match a with
  | ⟨0, _⟩ =>
    refine Fin.ext ?_
    show win1_3.index t (0 : Fin 2) * 512 + 1 * (y 0).val = 512 * (t.val / 8 % 8) + (y 0).val
    omega
  | ⟨1, _⟩ =>
    refine Fin.ext ?_
    show win1_3.index t (1 : Fin 2) * 128 + 1 * (y 1).val = (y 1).val
    omega

/-! ## The accumulator after each point is the common function's partial sum -/

/-- The second component of a pair known by an equation. -/
theorem snd_of_eq {α β : Type} {p : α × β} {a : α} {b : β} (h : p = (a, b)) : p.2 = b := by subst h; rfl

/-- p_k as the region finds it: row tile k of the hidden layer times W2ᵀ. -/
abbrev pOf (c : Dev nD) : Fin 8 → Vec F S512x128 .f32 :=
  fun k => matmul Cert.GcnSpec.dW2 none (rowT (V c main_v10) k) (V c main_v1) (constant Cert.GcnSpec.TZ .f32 0x00000000#32)

/-- One step at point n, on the point's blocks: the accumulator plus term n % 8 of row tile n / 8. -/
theorem step_eq (c : Dev nD) (n : ℕ) (hn : n < cfg1.N) (xs : Vec F S512x128 .f32) :
    k1_pay2 (iblk1 V c 1 ⟨n, hn⟩) (iblk1 V c 2 ⟨n, hn⟩) xs (iblk1 V c 0 ⟨n, hn⟩)
      = addf xs (Cert.GcnSpec.term2 (V c main_v8) (pOf V c) (rowN n) (fin8 n)) := by
  have e0 : iblk1 V c 0 ⟨n, hn⟩ = gT (V c main_v8) (rowN n) (fin8 n) := blk1_0 (V c main_v8) ⟨n, hn⟩
  have e1 : iblk1 V c 1 ⟨n, hn⟩ = rowT (V c main_v10) (fin8 n) := blk1_1 (V c main_v10) ⟨n, hn⟩
  have e2 : iblk1 V c 2 ⟨n, hn⟩ = V c main_v1 := blk1_2 (V c main_v1) ⟨n, hn⟩
  rw [e0, e1, e2, pay2_eq]

/-- After point n = 8·i + k the accumulator holds the first k + 1 terms of row tile i's sum, added to zero from the left:
    by induction on the point — reset and first term at k = 0, one more term otherwise. -/
theorem acc_eq (c : Dev nD) : ∀ (n : ℕ) (hn : n < cfg1.N),
    (outsAt1 V c n hn).2 = Cert.GcnSpec.acc2 (V c main_v8) (pOf V c) (rowN n) (n % 8 + 1)
  | 0, hn => by
    have h0 : (0 : ℕ) % 8 = 0 := Nat.zero_mod _
    have h1 : ¬(0 : ℕ) % 8 = 7 := by decide
    have e : (outsAt1 V c 0 hn).2 = saccA V c ⟨0, hn⟩ h0 h1 :=
      snd_of_eq (outsAt1_A V c ⟨0, hn⟩ h0 h1)
    rw [e, saccA_eq, step_eq, pay1_eq]
    exact (acc2_succ _ _ _ 0).symm
  | n + 1, hn => by
    have ih := acc_eq c n (Nat.lt_of_succ_lt hn)
    have hN : n + 1 < 64 := lt_of_lt_of_eq hn N_1
    by_cases h0 : (n + 1) % 8 = 0
    · have h1 : ¬(n + 1) % 8 = 7 := by omega
      have e : (outsAt1 V c (n + 1) hn).2 = saccA V c ⟨n + 1, hn⟩ h0 h1 :=
        snd_of_eq (outsAt1_A V c ⟨n + 1, hn⟩ h0 h1)
      rw [e, saccA_eq, step_eq, pay1_eq, h0, acc2_succ,
        show fin8 (n + 1) = fin8 0 from Fin.ext (by show (n + 1) % 8 = 0 % 8; omega)]
      rfl
    · have hrow : rowN n = rowN (n + 1) := congrArg fin8 (by omega)
      have hk : n % 8 + 1 = (n + 1) % 8 := by omega
      have hfin : fin8 (n + 1) = fin8 ((n + 1) % 8) := Fin.ext (by show (n + 1) % 8 = (n + 1) % 8 % 8; omega)
      by_cases h1 : (n + 1) % 8 = 7
      · have e : (outsAt1 V c (n + 1) hn).2 = saccC V c ⟨n + 1, hn⟩ h0 h1 (outsAt1 V c n (Nat.lt_of_succ_lt hn)).2 :=
          snd_of_eq (outsAt1_C V c ⟨n + 1, hn⟩ h0 h1)
        rw [e, saccC_eq, step_eq, ih, hrow, hk, hfin, acc2_succ]
      · have e : (outsAt1 V c (n + 1) hn).2 = saccB V c ⟨n + 1, hn⟩ h0 h1 (outsAt1 V c n (Nat.lt_of_succ_lt hn)).2 :=
          snd_of_eq (outsAt1_B V c ⟨n + 1, hn⟩ h0 h1)
        rw [e, saccB_eq, step_eq, ih, hrow, hk, hfin, acc2_succ]

/-- At the last term of a row tile the output tile's buffer holds the logistic of the whole sum: the result tile. -/
theorem out_eq (c : Dev nD) (t : Fin cfg1.N) (h1 : t.val % 8 = 7) :
    (outsAt1 V c t.val t.isLt).1 = Cert.GcnSpec.resT (V c main_v8) (pOf V c) (rowN t.val) := by
  have h0 : ¬t.val % 8 = 0 := by omega
  have e := outsAt1_C V c t h0 h1
  have e2 := (congrArg Prod.snd e).symm.trans (acc_eq V c t.val t.isLt)
  have e1 := congrArg Prod.fst e
  dsimp only at e1 e2
  rw [e1, outC_eq, ← saccC_eq V c t h0 h1, e2, h1, pay3_eq]
  rfl

/-! ## From blocks to the array -/

/-- A writing-back point (the last term of its row tile) writes back row tile i of the result. -/
theorem flushed1_3 (c : Dev nD) (t : Fin cfg1.N) (hf : (cfg1.win 3).flush t = true) :
    (dat1 V c).flushed 3 t = ((cfg1.win 3).blk t).view.read (Elt F)
      (stack (Cert.GcnSpec.resT (V c main_v8) (pOf V c)) : Vec F S4096x128 .f32) := by
  have h1 : t.val % 8 = 7 := (flush1_3 t).mp hf
  show (cfg1.win 3).cut (grid1.coords t) ((dat1 V c).after 3 t) = _
  rw [after1_3, out_eq V c t h1]
  refine ((blk1_3 _ t).trans ?_).symm
  exact Cert.GcnSpec.rowT_stack _ (rowN t.val)

/-- An index of the output array is in point t's block iff each coordinate is in the block's range on its axis. -/
theorem mem_blk1_3 (t : Fin cfg1.N) (i : S4096x128.Idx) :
    i ∈ ((cfg1.win 3).blk t).view.set ↔ ∀ a : Fin 2, win1_3.index t a * S512x128.size a ≤ (i a).val ∧ (i a).val < win1_3.index t a * S512x128.size a + S512x128.size a := by
  show i ∈ ((View.whole main_v11).slice (win1_3.rect t)).set ↔ _
  rw [View.set_slice_whole, Rect.mem_set_unit]
  exact Iff.rfl

/-- Row r lies in the block of the point 8·(r / 512) + 7, which writes back: the writing-back points' blocks cover the array. -/
theorem covers1_3 (i : S4096x128.Idx) :
    ∃ t : Fin cfg1.N, (cfg1.win 3).flush t = true ∧ i ∈ ((cfg1.win 3).blk t).view.set := by
  have hi0 : (i 0).val < 4096 := idx2_lt0 i
  have hi1 : (i 1).val < 128 := idx2_lt1 i
  have hN : cfg1.N = 64 := N_1
  have ht : 8 * ((i 0).val / 512) + 7 < cfg1.N := by rw [hN]; omega
  obtain ⟨-, -, -, ⟨h0, h1⟩⟩ := idx1 ⟨8 * ((i 0).val / 512) + 7, ht⟩
  refine ⟨⟨8 * ((i 0).val / 512) + 7, ht⟩, (flush1_3 _).mpr (by show (8 * ((i 0).val / 512) + 7) % 8 = 7; omega), ?_⟩
  rw [mem_blk1_3]
  intro a
  match a with
  | ⟨0, _⟩ =>
    show win1_3.index ⟨8 * ((i 0).val / 512) + 7, ht⟩ (0 : Fin 2) * 512 ≤ (i 0).val ∧ (i 0).val < win1_3.index ⟨8 * ((i 0).val / 512) + 7, ht⟩ (0 : Fin 2) * 512 + 512
    rw [h0]
    show (8 * ((i 0).val / 512) + 7) / 8 * 512 ≤ (i 0).val ∧ (i 0).val < (8 * ((i 0).val / 512) + 7) / 8 * 512 + 512
    omega
  | ⟨1, _⟩ =>
    show win1_3.index ⟨8 * ((i 0).val / 512) + 7, ht⟩ (1 : Fin 2) * 128 ≤ (i 1).val ∧ (i 1).val < win1_3.index ⟨8 * ((i 0).val / 512) + 7, ht⟩ (1 : Fin 2) * 128 + 128
    rw [h1]
    omega

/-- The output array after the region: the common function's second layer over g and the tiles p_k of the arrays the region finds. -/
theorem arr1_3 (c : Dev nD) : (dat1 V c).arrAt 3 cfg1.N = Cert.GcnSpec.stack (Cert.GcnSpec.resT (V c main_v8) (fun k => matmul Cert.GcnSpec.dW2 none (Cert.GcnSpec.rowT (V c main_v10) k) (V c main_v1) (constant Cert.GcnSpec.TZ .f32 0x00000000#32))) :=
  (dat1 V c).arrAt_eq_of_cover 3 _ (fun t hf => flushed1_3 V c t hf) covers1_3

end Cert.ReferenceIdeal.Hand1

end
-- ==== Proof.RFinal.lean ====
/-
  The reference's results as the common function of the argument arrays: the first region leaves the hidden layer
  relu(g · z · W1ᵀ) tile by tile, the second, reading that array back tile by tile, leaves logistic(g · z1 · W2ᵀ).
-/
import proofs.«161882_g2000703798406267_pallasbulk_306_14_alg».proof.Proof.RVals
import proofs.«161882_g2000703798406267_pallasbulk_306_14_alg».proof.Proof.R0Val
import proofs.«161882_g2000703798406267_pallasbulk_306_14_alg».proof.Proof.R1Val

noncomputable section

namespace Cert.ReferenceIdeal.RV

open Idealize.ShloMosaic Idealize.ShloMosaic.TcCoe Idealize.SL.Sem
open Cert.ReferenceIdeal Cert.ReferenceIdeal.Gen

variable {F : FTy → Type} [FloatOps F]
variable (m : (ℓ : Loc nD τ sig) → Buf (Elt F) ℓ)

/-- The hidden-layer array after the first region. -/
theorem z1_end (c : Dev nD) : (Hand.dat0 (V1 m) c).arrAt 3 cfg0.N
    = Cert.GcnSpec.z1 (F := F) (m ((c : Thread nD τ).loc main_arg0)) (m ((c : Thread nD τ).loc main_arg1)) (m ((c : Thread nD τ).loc main_arg2)) := by
  rw [Hand.arr0_3 (V1 m) c, V1_v3, V1_v5, V1_v0]
  rfl

/-- The result array after the second region: its row tile k of the hidden layer is the k-th tile the first region stored. -/
theorem res_end (c : Dev nD) : (Hand1.dat1 (V3 m) c).arrAt 3 cfg1.N
    = Cert.GcnSpec.res (F := F) (m ((c : Thread nD τ).loc main_arg0)) (m ((c : Thread nD τ).loc main_arg1)) (m ((c : Thread nD τ).loc main_arg2)) (m ((c : Thread nD τ).loc main_arg3)) := by
  rw [Hand1.arr1_3 (V3 m) c, V3_v8, V3_v10, V3_v1, z1_end]
  unfold Cert.GcnSpec.res Cert.GcnSpec.z1 Cert.GcnSpec.pT
  simp only [Cert.GcnSpec.rowT_stack]

/-- THE RUN with its results: every weakly fair execution of the reference's @main terminates, nothing faulting, with the
    two result arrays at the common function of the argument arrays and the arguments as launched. -/
theorem run (ρ : Dev nD → PrngReg) : θ_run defs (onTc (τ := τ) (main (F := F))) ⟨m, fun _ => 0, ρ⟩ (fun r => ∀ c : Dev nD,
      r.2.mem ((c.tc : Thread nD τ).loc main_v11) = Cert.GcnSpec.res (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v6) = Cert.GcnSpec.z1 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v11 (by decide))).trans ((W4_v11 m c).trans (res_end m c)),
     (h c _ (mem_uc main_v6 (by decide))).trans ((W4_v6 m c).trans (z1_end m c)),
     (h c _ (mem_uc main_arg0 (by decide))).trans (W4_arg0 m c),
     (h c _ (mem_uc main_arg1 (by decide))).trans (W4_arg1 m c),
     (h c _ (mem_uc main_arg2 (by decide))).trans (W4_arg2 m c),
     (h c _ (mem_uc main_arg3 (by decide))).trans (W4_arg3 m c)⟩) (run_all m ρ)

end Cert.ReferenceIdeal.RV

end
-- ==== Proof.lean ====
/-
  Two graph-convolution layers, z1 = relu(g · z · W1ᵀ) and res = logistic(g · z1 · W2ᵀ), over g : [4096, 4096],
  z : [4096, 128], W1 : [256, 128], W2 : [128, 256].

  The kernel makes two passes over eight row slabs of g: the first computes, per slab i, the eight terms
  (g[i,k] · z[k]) · W1ᵀ, adds them to zero from the left, takes the maximum with zero (the hidden-layer tile z1_i) and also
  stores p_i = z1_i · W2ᵀ; the second adds the eight terms g[i,k] · p_k to zero from the left and applies the logistic
  function. The reference does the same sums on an 8 × 8 grid, one term per grid point, in an accumulator carried from
  point to point (reset at k = 0, read out at k = 7), the second layer forming (z1 tile k) · W2ᵀ at each point; around its
  two regions it transposes the weights and pads g, z and z1 to their own sizes, which changes nothing.
  Both programs therefore compute the same nest of matrix products and sums, term for term and in the same order: the
  common function is Proof/Spec.lean, the kernel's side is Proof/K*.lean, the reference's side Proof/R*.lean, and the
  two result arrays are equal as they stand — no law of the extended reals is used, and the finiteness of the inputs
  is never opened. The idealization rewrote nothing, so the fourth conjunct is trivial.
-/
import proofs.«161882_g2000703798406267_pallasbulk_306_14_alg».proof.Defs
import proofs.«161882_g2000703798406267_pallasbulk_306_14_alg».proof.Proof.Gen.Kernel
import proofs.«161882_g2000703798406267_pallasbulk_306_14_alg».proof.Proof.Gen.Kernel.Frame
import proofs.«161882_g2000703798406267_pallasbulk_306_14_alg».proof.Proof.Gen.KernelIdeal
import proofs.«161882_g2000703798406267_pallasbulk_306_14_alg».proof.Proof.Gen.KernelIdeal.Frame
import proofs.«161882_g2000703798406267_pallasbulk_306_14_alg».proof.Proof.Gen.ReferenceIdeal
import proofs.«161882_g2000703798406267_pallasbulk_306_14_alg».proof.Proof.Gen.Pre_finite_inputs
import proofs.«161882_g2000703798406267_pallasbulk_306_14_alg».proof.Proof.KRun
import proofs.«161882_g2000703798406267_pallasbulk_306_14_alg».proof.Proof.RFinal
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The idealized reference runs and keeps its arguments: its run with results, the results dropped. -/
theorem frame_ri : Cert.frame_ReferenceIdeal := fun m ρ _ =>
  (θ_run Cert.ReferenceIdeal.defs _ _).mono (fun _ h c => (h c).2.2) (Cert.ReferenceIdeal.RV.run (F := Ideal) m ρ)

/-- From memories that agree on the arguments both idealized programs end with the common function of the arguments in
    their two result arrays. -/
theorem algebraic : Cert.algebraic_KernelIdeal_ReferenceIdeal := by
  intro m ρ m' ρ' _ hagree
  refine ⟨_, _, Cert.KernelIdeal.KV.run (F := Ideal) m ρ, ?_⟩
  refine (θ_run Cert.ReferenceIdeal.defs _ _).mono (fun r h c => ?_) (Cert.ReferenceIdeal.RV.run (F := Ideal) m' ρ')
  obtain ⟨h1, h2, h3⟩ := h c
  rw [(hagree c).1, (hagree c).2.1, (hagree c).2.2.1, (hagree c).2.2.2] at h1
  rw [(hagree c).1, (hagree c).2.1, (hagree c).2.2.1] at h2
  exact ⟨h1, h2, h3⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
